-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S64 : Shape := ⟨1, ![64]⟩
abbrev S3x64x16 : Shape := ⟨3, ![3, 64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S3x64x16 : S_.BroadcastsInDim S3x64x16 (![] : Fin 0 → Fin S3x64x16.rank)
  reducesTo_S3x64x16_S_d0_1_2 : S3x64x16.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S3x64x16 1) : IVec S_ 1 :=
  let main_c_5 : IVec S_ 1 := constantI S_ 1 1#1
  let main_v17 : IVec S_ 1 := (fun x v => Host.reduce IntOp.andi x v reducesTo_S3x64x16_S_d0_1_2 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S3x64x64 .f32) (main_arg3 : FVec F S64 .f32) (main_arg4 : FVec F S3x64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x16 .f32 := Host.absf main_arg4
  let main_cst_4 : FVec F S_ .f32 := constant S_ .f32 0x7F800000#32
  let main_v15 : FVec F S3x64x16 .f32 := broadcastInDim S3x64x16 ![] bcast_S_S3x64x16 main_cst_4
  let main_v16 : IVec S3x64x16 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S64 : Shape := ⟨1, ![64]⟩
abbrev S3x64x16 : Shape := ⟨3, ![3, 64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S10000x64 : Shape := ⟨2, ![10000, 64]⟩
abbrev S1x64x64 : Shape := ⟨3, ![1, 64, 64]⟩
abbrev S64x64 : Shape := ⟨2, ![64, 64]⟩
abbrev S1x64 : Shape := ⟨2, ![1, 64]⟩
abbrev S100000x16 : Shape := ⟨2, ![100000, 16]⟩
abbrev S10000x16 : Shape := ⟨2, ![10000, 16]⟩
abbrev S1x64x16 : Shape := ⟨3, ![1, 64, 16]⟩
abbrev S64x16 : Shape := ⟨2, ![64, 16]⟩
abbrev S1x16 : Shape := ⟨2, ![1, 16]⟩
abbrev S10000 : Shape := ⟨1, ![10000]⟩
abbrev S10000x1 : Shape := ⟨2, ![10000, 1]⟩

abbrev nBuf : Space → Nat
  | .hbm => 121
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S3x64x64, .f32⟩
  | .hbm, ⟨3, _⟩ => ⟨S64, .f32⟩
  | .hbm, ⟨4, _⟩ => ⟨S3x64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x1, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S1600000x1, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .f32⟩
  | .hbm, ⟨109, _⟩ => ⟨S1600000x1, .f32⟩
  | .hbm, ⟨110, _⟩ => ⟨S1600000x64, .f32⟩
  | .hbm, ⟨111, _⟩ => ⟨S1600000x64, .f32⟩
  | .hbm, ⟨112, _⟩ => ⟨S_, .f32⟩
  | .hbm, ⟨113, _⟩ => ⟨S100000x64, .f32⟩
  | .hbm, ⟨114, _⟩ => ⟨S1600000x1, .i32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S3x64x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S3x64x16, .f32⟩
  | .local _ .vmem, ⟨17, _⟩ => ⟨S16, .f32⟩
  | .local _ .vmem, ⟨18, _⟩ => ⟨S10000x16, .f32⟩
  | .local _ .vmem, ⟨19, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S3x64x16_S1x64x16_0_0_0 : ∀ a, (![0, 0, 0] : Fin 3 → Nat) a + S1x64x16.size a ≤ S3x64x16.size a
  h_S1x64x16 : 0 < S1x64x16.numel
  shapeCasts_S1x64x16_S64x16 : S1x64x16.ShapeCasts S64x16
  inb_S3x64x16_S1x64x16_1_0_0 : ∀ a, (![1, 0, 0] : Fin 3 → Nat) a + S1x64x16.size a ≤ S3x64x16.size a
  inb_S3x64x16_S1x64x16_2_0_0 : ∀ a, (![2, 0, 0] : Fin 3 → Nat) a + S1x64x16.size a ≤ S3x64x16.size a
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x16.size a ≤ S3x64x16.size a
  hwx1_3 : ∀ i : grid1.Coords, EltTy.bits .f32 = 32 ∨ (Rect.block (s := S3x64x16) S3x64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v88) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S64 : Shape := ⟨1, ![64]⟩
abbrev S3x64x16 : Shape := ⟨3, ![3, 64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩
abbrev S1x64x16 : Shape := ⟨3, ![1, 64, 16]⟩
abbrev S64x16 : Shape := ⟨2, ![64, 16]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S64, .f32⟩
  | 4 => ⟨S3x64x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1x64x64, .f32⟩
  | 48 => ⟨S64x64, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x1, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x64x64, .f32⟩
  | 67 => ⟨S64x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x1, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S1x64x64, .f32⟩
  | 91 => ⟨S64x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S1x64x16, .f32⟩
  | 101 => ⟨S64x16, .f32⟩
  | 102 => ⟨S100000x16, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x1, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S1x64x16, .f32⟩
  | 120 => ⟨S64x16, .f32⟩
  | 121 => ⟨S100000x16, .f32⟩
  | 122 => ⟨S100000x16, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x1, .f32⟩
  | 5 => ⟨S1600000x64, .f32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S1x64x16, .f32⟩
  | 16 => ⟨S64x16, .f32⟩
  | 17 => ⟨S100000x16, .f32⟩
  | 18 => ⟨S100000x16, .f32⟩
  | 19 => ⟨S1x16, .f32⟩
  | 20 => ⟨S100000x16, .f32⟩
  | 21 => ⟨S100000x16, .f32⟩
  | 22 => ⟨S_, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x16, .f32⟩
  | 29 => ⟨S100000x16, .f32⟩
  | 30 => ⟨S100000x16, .f32⟩
  | 31 => ⟨S_, .f32⟩
  | 32 => ⟨S100000, .f32⟩
  | 33 => ⟨S100000x1, .f32⟩
  | 34 => ⟨S100000x1, .f32⟩
  | 35 => ⟨S100000x16, .f32⟩
  | 36 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_call2_cst : Ref sig .tc := ⟨.hbm, 150, rfl⟩
abbrev main_call2_v0 : Ref sig .tc := ⟨.hbm, 151, rfl⟩
abbrev main_call2_cst_0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_call2_v5 : Ref sig .tc := ⟨.hbm, 157, rfl⟩
abbrev main_call2_v6 : Ref sig .tc := ⟨.hbm, 158, rfl⟩
abbrev main_call2_cst_1 : Ref sig .tc := ⟨.hbm, 159, rfl⟩
abbrev main_call2_v7 : Ref sig .tc := ⟨.hbm, 160, rfl⟩
abbrev main_call2_v8 : Ref sig .tc := ⟨.hbm, 161, rfl⟩
abbrev main_call2_v9 : Ref sig .tc := ⟨.hbm, 162, rfl⟩
abbrev main_call2_v10 : Ref sig .tc := ⟨.hbm, 163, rfl⟩
abbrev main_v117 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x16_S1x64x16_0_0_0 : S3x64x16.Slices ![0, 0, 0] S1x64x16
  shapeCasts_S1x64x16_S64x16 : S1x64x16.ShapeCasts S64x16
  slices_S3x64x16_S1x64x16_1_0_0 : S3x64x16.Slices ![1, 0, 0] S1x64x16
  slices_S3x64x16_S1x64x16_2_0_0 : S3x64x16.Slices ![2, 0, 0] S1x64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibAfterCut.lean ====
/-
  A straight line of host operations may be read back in pieces.

  The buffer contents after a list of operations are a fold of the operations' results over the starting contents, so the
  contents after a concatenation are the contents after the second list from the contents after the first, and any list
  may be cut at any position. Reading one buffer back through a long line composes every stage it depends on into one
  term, every shared stage repeated at each use; cut after a shared stage, the later piece mentions it as one atom.
  For any mesh, signature and element values.
-/
import Idealize.ShloMosaic.Lib.StableHlo.Run

namespace Cert.LibAfterCut

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut at position `n`: its first `n` operations, then the rest. -/
theorem after_take_drop (n : ℕ) (l : List (HloOp τ sig Val)) (V : Valuation τ sig Val) :
    after l V = after (l.drop n) (after (l.take n) V) := by
  rw [← after_append, List.take_append_drop]

end Cert.LibAfterCut
-- ==== Proof.LibTypedRef.lean ====
/-
  A typed reference carries contents to its buffer's own type and back along the equation between the two types; there and
  back is the identity. (The operations of an outlined function are stated at the types of its values and moved to the
  buffers' types this way, so a value read back through several of them is wrapped once per operation; this removes
  every matched pair.) For any signature, buffer type and element values.
-/
import Idealize.ShloMosaic.Lib.StableHlo

namespace Cert.LibTypedRef

open Idealize.ShloMosaic Idealize.ShloMosaic.StableHlo

variable {sig : RefSig} {Val : EltTy → Type} {T : BufTy}

/-- Contents carried to a typed reference's buffer and back are unchanged. -/
theorem ofBuf_toBuf (x : TRef sig T) (v : T.Contents Val) : x.ofBuf (x.toBuf v) = v := by
  obtain ⟨r, h, hd, hu⟩ := x
  subst h
  rfl

end Cert.LibTypedRef
-- ==== Proof.RefRun.lean ====
/-
  The reference's run, read back in six pieces.

  The reference is one straight line of 159 host operations. Every weakly fair execution of it terminates with each buffer
  at the fold of the operations' results over the launch contents (`StableHlo.run_seq`). What the result buffer then holds
  is read back with the line cut five times: after operation 18 (the degrees' comparison with zero and their inverse
  square roots), after 21 (the outlined selection between those and zero), after 41 (the edge weights), after 94 (the
  hidden features: the first layer), after 144 (the second layer's logits), the rest being the outlined logarithm of the
  softmax. Each piece is read back on its own, the stages before the cut entering as the contents the piece starts
  from: a stage used many times later on is never repeated inside a term, and the operations of an outlined function
  meet their operands as single names. Piece by piece the buffers are the reference's stages `val_…` of the six
  arguments, and the arguments are written by no operation.
-/
import proofs.«140460_j43542378447164_1_alg».proof.Proof.RefRunP
import proofs.«140460_j43542378447164_1_alg».proof.Proof.RefReadP
import proofs.«140460_j43542378447164_1_alg».proof.Proof.LibAfterCut
import proofs.«140460_j43542378447164_1_alg».proof.Proof.LibTypedRef
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.ReadP (val_main_v1 val_main_v3 val_main_v9 val_main_v12 val_main_cst_3 val_main_v13 val_main_v29 val_main_v73 val_main_v116 val_main_v117)

/-- Operations 1–18: the edge list's two rows, the node degrees, their comparison with zero and inverse square roots. -/
abbrev piece1 : List (HloOp τ sig (Elt Ideal)) := (ops (F := Ideal)).take 18
/-- Operations 19–21: the outlined selection. -/
abbrev pieceW : List (HloOp τ sig (Elt Ideal)) := ((ops (F := Ideal)).drop 18).take 3
/-- Operations 22–41: the edge weights. -/
abbrev piece2 : List (HloOp τ sig (Elt Ideal)) := (((ops (F := Ideal)).drop 18).drop 3).take 20
/-- Operations 42–94: the first layer, to the hidden features. -/
abbrev pieceB : List (HloOp τ sig (Elt Ideal)) := ((((ops (F := Ideal)).drop 18).drop 3).drop 20).take 53
/-- Operations 95–144: the second layer's logits. -/
abbrev pieceC : List (HloOp τ sig (Elt Ideal)) := (((((ops (F := Ideal)).drop 18).drop 3).drop 20).drop 53).take 50
/-- Operations 145–159: the outlined logarithm of the softmax. -/
abbrev pieceL : List (HloOp τ sig (Elt Ideal)) := (((((ops (F := Ideal)).drop 18).drop 3).drop 20).drop 53).drop 50

/-- The whole line is the six pieces in order. -/
theorem after_ops (X : Valuation τ sig (Elt Ideal)) :
    after (ops (F := Ideal)) X = after pieceL (after pieceC (after pieceB (after piece2 (after pieceW (after piece1 X))))) := by
  rw [Cert.LibAfterCut.after_take_drop 18 (ops (F := Ideal)) X,
    Cert.LibAfterCut.after_take_drop 3 ((ops (F := Ideal)).drop 18) (after piece1 X),
    Cert.LibAfterCut.after_take_drop 20 (((ops (F := Ideal)).drop 18).drop 3) (after pieceW (after piece1 X)),
    Cert.LibAfterCut.after_take_drop 53 ((((ops (F := Ideal)).drop 18).drop 3).drop 20) (after piece2 (after pieceW (after piece1 X))),
    Cert.LibAfterCut.after_take_drop 50 (((((ops (F := Ideal)).drop 18).drop 3).drop 20).drop 53)
      (after pieceB (after piece2 (after pieceW (after piece1 X))))]

/-! ## Piece 1 -/

variable (X : Valuation τ sig (Elt Ideal))

set_option maxHeartbeats 40000000 in
set_option maxRecDepth 65536 in
/-- The edges' target nodes. -/
theorem p1_v1 :
    after piece1 X (Proc.devRef .tc main_v1) = val_main_v1 (F := Ideal) (X (Proc.devRef .tc main_arg1)) := by
  simp only [piece1, List.take_succ_cons, List.take_zero, List.drop_succ_cons, List.drop_zero]
  after_results_simp
  rfl

set_option maxHeartbeats 40000000 in
set_option maxRecDepth 65536 in
/-- The edges' source nodes. -/
theorem p1_v3 :
    after piece1 X (Proc.devRef .tc main_v3) = val_main_v3 (F := Ideal) (X (Proc.devRef .tc main_arg1)) := by
  simp only [piece1, List.take_succ_cons, List.take_zero, List.drop_succ_cons, List.drop_zero]
  after_results_simp
  rfl

set_option maxHeartbeats 40000000 in
set_option maxRecDepth 65536 in
/-- Which nodes have a positive degree. -/
theorem p1_v9 :
    after piece1 X (Proc.devRef .tc main_v9) = val_main_v9 (F := Ideal) (X (Proc.devRef .tc main_arg1)) := by
  simp only [piece1, List.take_succ_cons, List.take_zero, List.drop_succ_cons, List.drop_zero]
  after_results_simp
  rfl

set_option maxHeartbeats 40000000 in
set_option maxRecDepth 65536 in
/-- The inverse square roots of the degrees clamped below at one. -/
theorem p1_v12 :
    after piece1 X (Proc.devRef .tc main_v12) = val_main_v12 (F := Ideal) (X (Proc.devRef .tc main_arg1)) := by
  simp only [piece1, List.take_succ_cons, List.take_zero, List.drop_succ_cons, List.drop_zero]
  after_results_simp
  rfl

set_option maxHeartbeats 40000000 in
set_option maxRecDepth 65536 in
/-- The constant zero. -/
theorem p1_cst3 :
    after piece1 X (Proc.devRef .tc main_cst_3) = val_main_cst_3 (F := Ideal) := by
  simp only [piece1, List.take_succ_cons, List.take_zero, List.drop_succ_cons, List.drop_zero]
  after_results_simp
  rfl

set_option maxHeartbeats 40000000 in
set_option maxRecDepth 65536 in
/-- No operation of piece 1 writes `main_arg0`. -/
theorem p1_arg0 : after piece1 X (Proc.devRef .tc main_arg0) = X (Proc.devRef .tc main_arg0) := by
  simp only [piece1, List.take_succ_cons, List.take_zero, List.drop_succ_cons, List.drop_zero]
  after_results_simp

set_option maxHeartbeats 40000000 in
set_option maxRecDepth 65536 in
/-- No operation of piece 1 writes `main_arg2`. -/
theorem p1_arg2 : after piece1 X (Proc.devRef .tc main_arg2) = X (Proc.devRef .tc main_arg2) := by
  simp only [piece1, List.take_succ_cons, List.take_zero, List.drop_succ_cons, List.drop_zero]
  after_results_simp

set_option maxHeartbeats 40000000 in
set_option maxRecDepth 65536 in
/-- No operation of piece 1 writes `main_arg3`. -/
theorem p1_arg3 : after piece1 X (Proc.devRef .tc main_arg3) = X (Proc.devRef .tc main_arg3) := by
  simp only [piece1, List.take_succ_cons, List.take_zero, List.drop_succ_cons, List.drop_zero]
  after_results_simp

set_option maxHeartbeats 40000000 in
set_option maxRecDepth 65536 in
/-- No operation of piece 1 writes `main_arg4`. -/
theorem p1_arg4 : after piece1 X (Proc.devRef .tc main_arg4) = X (Proc.devRef .tc main_arg4) := by
  simp only [piece1, List.take_succ_cons, List.take_zero, List.drop_succ_cons, List.drop_zero]
  after_results_simp

set_option maxHeartbeats 40000000 in
set_option maxRecDepth 65536 in
/-- No operation of piece 1 writes `main_arg5`. -/
theorem p1_arg5 : after piece1 X (Proc.devRef .tc main_arg5) = X (Proc.devRef .tc main_arg5) := by
  simp only [piece1, List.take_succ_cons, List.take_zero, List.drop_succ_cons, List.drop_zero]
  after_results_simp

/-! ## The outlined selection -/

variable (Y : Valuation τ sig (Elt Ideal))

/-- The outlined selection as one function of its three operands: where the condition holds the first array, elsewhere the
    scalar, converted and spread over the nodes. -/
def whereTerm (c : (⟨S100000, .i1⟩ : BufTy).Contents (Elt Ideal)) (a : (⟨S100000, .f32⟩ : BufTy).Contents (Elt Ideal))
    (z : (⟨S_, .f32⟩ : BufTy).Contents (Elt Ideal)) : (⟨S100000, .f32⟩ : BufTy).Contents (Elt Ideal) :=
  select c a (broadcastInDim S100000 ![] bcast_S_S100000 (id z))

set_option maxHeartbeats 40000000 in
set_option maxRecDepth 65536 in
/-- The selection's three operations, from any contents: the function above of what the contents hold. -/
theorem pW_where (c : (⟨S100000, .i1⟩ : BufTy).Contents (Elt Ideal)) (a : (⟨S100000, .f32⟩ : BufTy).Contents (Elt Ideal))
    (z : (⟨S_, .f32⟩ : BufTy).Contents (Elt Ideal))
    (h9 : Y (Proc.devRef .tc main_v9) = c) (h12 : Y (Proc.devRef .tc main_v12) = a) (hc : Y (Proc.devRef .tc main_cst_3) = z) :
    after pieceW Y (Proc.devRef .tc main_v13) = whereTerm c a z := by
  simp only [pieceW, List.take_succ_cons, List.take_zero, List.drop_succ_cons, List.drop_zero]
  after_results_simp
  rw [h9, h12, hc]
  rfl

/-- The inverse square roots where the degree is positive, zero elsewhere. -/
theorem pW_v13 (x1 : (⟨S2x1600000, .i32⟩ : BufTy).Contents (Elt Ideal))
    (h9 : Y (Proc.devRef .tc main_v9) = val_main_v9 (F := Ideal) x1) (h12 : Y (Proc.devRef .tc main_v12) = val_main_v12 (F := Ideal) x1) (hc : Y (Proc.devRef .tc main_cst_3) = val_main_cst_3 (F := Ideal)) :
    after pieceW Y (Proc.devRef .tc main_v13) = val_main_v13 (F := Ideal) x1 :=
  (pW_where Y _ _ _ h9 h12 hc).trans rfl

set_option maxHeartbeats 40000000 in
set_option maxRecDepth 65536 in
/-- No operation of the selection writes `main_v1`. -/
theorem pW_v1 : after pieceW Y (Proc.devRef .tc main_v1) = Y (Proc.devRef .tc main_v1) := by
  simp only [pieceW, List.take_succ_cons, List.take_zero, List.drop_succ_cons, List.drop_zero]
  after_results_simp

set_option maxHeartbeats 40000000 in
set_option maxRecDepth 65536 in
/-- No operation of the selection writes `main_v3`. -/
theorem pW_v3 : after pieceW Y (Proc.devRef .tc main_v3) = Y (Proc.devRef .tc main_v3) := by
  simp only [pieceW, List.take_succ_cons, List.take_zero, List.drop_succ_cons, List.drop_zero]
  after_results_simp

set_option maxHeartbeats 40000000 in
set_option maxRecDepth 65536 in
/-- No operation of the selection writes `main_arg0`. -/
theorem pW_arg0 : after pieceW Y (Proc.devRef .tc main_arg0) = Y (Proc.devRef .tc main_arg0) := by
  simp only [pieceW, List.take_succ_cons, List.take_zero, List.drop_succ_cons, List.drop_zero]
  after_results_simp

set_option maxHeartbeats 40000000 in
set_option maxRecDepth 65536 in
/-- No operation of the selection writes `main_arg2`. -/
theorem pW_arg2 : after pieceW Y (Proc.devRef .tc main_arg2) = Y (Proc.devRef .tc main_arg2) := by
  simp only [pieceW, List.take_succ_cons, List.take_zero, List.drop_succ_cons, List.drop_zero]
  after_results_simp

set_option maxHeartbeats 40000000 in
set_option maxRecDepth 65536 in
/-- No operation of the selection writes `main_arg3`. -/
theorem pW_arg3 : after pieceW Y (Proc.devRef .tc main_arg3) = Y (Proc.devRef .tc main_arg3) := by
  simp only [pieceW, List.take_succ_cons, List.take_zero, List.drop_succ_cons, List.drop_zero]
  after_results_simp

set_option maxHeartbeats 40000000 in
set_option maxRecDepth 65536 in
/-- No operation of the selection writes `main_arg4`. -/
theorem pW_arg4 : after pieceW Y (Proc.devRef .tc main_arg4) = Y (Proc.devRef .tc main_arg4) := by
  simp only [pieceW, List.take_succ_cons, List.take_zero, List.drop_succ_cons, List.drop_zero]
  after_results_simp

set_option maxHeartbeats 40000000 in
set_option maxRecDepth 65536 in
/-- No operation of the selection writes `main_arg5`. -/
theorem pW_arg5 : after pieceW Y (Proc.devRef .tc main_arg5) = Y (Proc.devRef .tc main_arg5) := by
  simp only [pieceW, List.take_succ_cons, List.take_zero, List.drop_succ_cons, List.drop_zero]
  after_results_simp

/-! ## Piece 2 -/

variable (Z : Valuation τ sig (Elt Ideal))

set_option maxHeartbeats 40000000 in
set_option maxRecDepth 65536 in
/-- The edge weights. -/
theorem p2_v29 (x1 : (⟨S2x1600000, .i32⟩ : BufTy).Contents (Elt Ideal))
    (h13 : Z (Proc.devRef .tc main_v13) = val_main_v13 (F := Ideal) x1) (h1 : Z (Proc.devRef .tc main_v1) = val_main_v1 (F := Ideal) x1) (h3 : Z (Proc.devRef .tc main_v3) = val_main_v3 (F := Ideal) x1) :
    after piece2 Z (Proc.devRef .tc main_v29) = val_main_v29 (F := Ideal) x1 := by
  simp only [piece2, List.take_succ_cons, List.take_zero, List.drop_succ_cons, List.drop_zero]
  after_results_simp
  simp only [h13, h1, h3]
  rfl

set_option maxHeartbeats 40000000 in
set_option maxRecDepth 65536 in
/-- No operation of piece 2 writes `main_v1`. -/
theorem p2_v1 : after piece2 Z (Proc.devRef .tc main_v1) = Z (Proc.devRef .tc main_v1) := by
  simp only [piece2, List.take_succ_cons, List.take_zero, List.drop_succ_cons, List.drop_zero]
  after_results_simp

set_option maxHeartbeats 40000000 in
set_option maxRecDepth 65536 in
/-- No operation of piece 2 writes `main_v3`. -/
theorem p2_v3 : after piece2 Z (Proc.devRef .tc main_v3) = Z (Proc.devRef .tc main_v3) := by
  simp only [piece2, List.take_succ_cons, List.take_zero, List.drop_succ_cons, List.drop_zero]
  after_results_simp

set_option maxHeartbeats 40000000 in
set_option maxRecDepth 65536 in
/-- No operation of piece 2 writes `main_arg0`. -/
theorem p2_arg0 : after piece2 Z (Proc.devRef .tc main_arg0) = Z (Proc.devRef .tc main_arg0) := by
  simp only [piece2, List.take_succ_cons, List.take_zero, List.drop_succ_cons, List.drop_zero]
  after_results_simp

set_option maxHeartbeats 40000000 in
set_option maxRecDepth 65536 in
/-- No operation of piece 2 writes `main_arg2`. -/
theorem p2_arg2 : after piece2 Z (Proc.devRef .tc main_arg2) = Z (Proc.devRef .tc main_arg2) := by
  simp only [piece2, List.take_succ_cons, List.take_zero, List.drop_succ_cons, List.drop_zero]
  after_results_simp

set_option maxHeartbeats 40000000 in
set_option maxRecDepth 65536 in
/-- No operation of piece 2 writes `main_arg3`. -/
theorem p2_arg3 : after piece2 Z (Proc.devRef .tc main_arg3) = Z (Proc.devRef .tc main_arg3) := by
  simp only [piece2, List.take_succ_cons, List.take_zero, List.drop_succ_cons, List.drop_zero]
  after_results_simp

set_option maxHeartbeats 40000000 in
set_option maxRecDepth 65536 in
/-- No operation of piece 2 writes `main_arg4`. -/
theorem p2_arg4 : after piece2 Z (Proc.devRef .tc main_arg4) = Z (Proc.devRef .tc main_arg4) := by
  simp only [piece2, List.take_succ_cons, List.take_zero, List.drop_succ_cons, List.drop_zero]
  after_results_simp

set_option maxHeartbeats 40000000 in
set_option maxRecDepth 65536 in
/-- No operation of piece 2 writes `main_arg5`. -/
theorem p2_arg5 : after piece2 Z (Proc.devRef .tc main_arg5) = Z (Proc.devRef .tc main_arg5) := by
  simp only [piece2, List.take_succ_cons, List.take_zero, List.drop_succ_cons, List.drop_zero]
  after_results_simp

/-! ## The first layer -/

variable (U : Valuation τ sig (Elt Ideal))

set_option maxHeartbeats 40000000 in
set_option maxRecDepth 65536 in
/-- The hidden features, from contents holding the arguments and the earlier pieces' stages. -/
theorem pB_v73 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal))
    (h0 : U (Proc.devRef .tc main_arg0) = x0) (h2 : U (Proc.devRef .tc main_arg2) = x2) (h3 : U (Proc.devRef .tc main_arg3) = x3) (hv1 : U (Proc.devRef .tc main_v1) = val_main_v1 (F := Ideal) x1) (hv3 : U (Proc.devRef .tc main_v3) = val_main_v3 (F := Ideal) x1) (hv29 : U (Proc.devRef .tc main_v29) = val_main_v29 (F := Ideal) x1) :
    after pieceB U (Proc.devRef .tc main_v73) = val_main_v73 (F := Ideal) x0 x1 x2 x3 := by
  simp only [pieceB, List.take_succ_cons, List.take_zero, List.drop_succ_cons, List.drop_zero]
  after_results_simp
  simp only [h0, h2, h3, hv1, hv3, hv29]
  rfl

set_option maxHeartbeats 40000000 in
set_option maxRecDepth 65536 in
/-- No operation of the first layer writes `main_v1`. -/
theorem pB_v1 : after pieceB U (Proc.devRef .tc main_v1) = U (Proc.devRef .tc main_v1) := by
  simp only [pieceB, List.take_succ_cons, List.take_zero, List.drop_succ_cons, List.drop_zero]
  after_results_simp

set_option maxHeartbeats 40000000 in
set_option maxRecDepth 65536 in
/-- No operation of the first layer writes `main_v3`. -/
theorem pB_v3 : after pieceB U (Proc.devRef .tc main_v3) = U (Proc.devRef .tc main_v3) := by
  simp only [pieceB, List.take_succ_cons, List.take_zero, List.drop_succ_cons, List.drop_zero]
  after_results_simp

set_option maxHeartbeats 40000000 in
set_option maxRecDepth 65536 in
/-- No operation of the first layer writes `main_v29`. -/
theorem pB_v29 : after pieceB U (Proc.devRef .tc main_v29) = U (Proc.devRef .tc main_v29) := by
  simp only [pieceB, List.take_succ_cons, List.take_zero, List.drop_succ_cons, List.drop_zero]
  after_results_simp

set_option maxHeartbeats 40000000 in
set_option maxRecDepth 65536 in
/-- No operation of the first layer writes `main_arg4`. -/
theorem pB_arg4 : after pieceB U (Proc.devRef .tc main_arg4) = U (Proc.devRef .tc main_arg4) := by
  simp only [pieceB, List.take_succ_cons, List.take_zero, List.drop_succ_cons, List.drop_zero]
  after_results_simp

set_option maxHeartbeats 40000000 in
set_option maxRecDepth 65536 in
/-- No operation of the first layer writes `main_arg5`. -/
theorem pB_arg5 : after pieceB U (Proc.devRef .tc main_arg5) = U (Proc.devRef .tc main_arg5) := by
  simp only [pieceB, List.take_succ_cons, List.take_zero, List.drop_succ_cons, List.drop_zero]
  after_results_simp

/-! ## The second layer's logits -/

variable (V : Valuation τ sig (Elt Ideal))

set_option maxHeartbeats 40000000 in
set_option maxRecDepth 65536 in
/-- The logits, from contents holding the hidden features, the edge data and the second weights and bias. -/
theorem pC_v116 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal))
    (h73 : V (Proc.devRef .tc main_v73) = val_main_v73 (F := Ideal) x0 x1 x2 x3) (hv1 : V (Proc.devRef .tc main_v1) = val_main_v1 (F := Ideal) x1) (hv3 : V (Proc.devRef .tc main_v3) = val_main_v3 (F := Ideal) x1) (hv29 : V (Proc.devRef .tc main_v29) = val_main_v29 (F := Ideal) x1) (h4 : V (Proc.devRef .tc main_arg4) = x4) (h5 : V (Proc.devRef .tc main_arg5) = x5) :
    after pieceC V (Proc.devRef .tc main_v116) = val_main_v116 (F := Ideal) x0 x1 x2 x3 x4 x5 := by
  simp only [pieceC, List.take_succ_cons, List.take_zero, List.drop_succ_cons, List.drop_zero]
  after_results_simp
  simp only [h73, hv1, hv3, hv29, h4, h5]
  rfl

/-! ## The outlined logarithm of the softmax -/

variable (W : Valuation τ sig (Elt Ideal))

/-- The outlined logarithm of the softmax as one function of the logits: the row maximum (a reduction from −∞, then the
    maximum with −∞ again), spread back and subtracted; the row sum of the exponentials from zero, its logarithm spread
    back and subtracted. -/
def lsmTerm (u : (⟨S100000x16, .f32⟩ : BufTy).Contents (Elt Ideal)) : (⟨S100000x16, .f32⟩ : BufTy).Contents (Elt Ideal) :=
  subf
    (subf u (broadcastInDim S100000x16 ![0, 1] bcast_S100000x1_S100000x16_0_1 (broadcastInDim S100000x1 ![0] bcast_S100000_S100000x1_0
      (maximumf (broadcastInDim S100000 ![] bcast_S_S100000 (constant (F := Ideal) S_ .f32 0xFF800000#32))
        (Host.reduce FloatOps.maximumf u (constant (F := Ideal) S_ .f32 0xFF800000#32) reducesTo_S100000x16_S100000_d1 h_S_)))))
    (broadcastInDim S100000x16 ![0, 1] bcast_S100000x1_S100000x16_0_1 (Host.log (F := Ideal) (broadcastInDim S100000x1 ![0] bcast_S100000_S100000x1_0
      (Host.reduceAdd (F := Ideal)
        (Host.exp (F := Ideal) (subf u (broadcastInDim S100000x16 ![0, 1] bcast_S100000x1_S100000x16_0_1 (broadcastInDim S100000x1 ![0] bcast_S100000_S100000x1_0
          (maximumf (broadcastInDim S100000 ![] bcast_S_S100000 (constant (F := Ideal) S_ .f32 0xFF800000#32))
            (Host.reduce FloatOps.maximumf u (constant (F := Ideal) S_ .f32 0xFF800000#32) reducesTo_S100000x16_S100000_d1 h_S_))))))
        (constant (F := Ideal) S_ .f32 0x00000000#32) reducesTo_S100000x16_S100000_d1 h_S_))))

set_option maxHeartbeats 40000000 in
set_option maxRecDepth 65536 in
/-- The outlined function's fifteen operations, from any contents: the function above of the logits the contents hold. -/
theorem pL_lsm (u : (⟨S100000x16, .f32⟩ : BufTy).Contents (Elt Ideal)) (h116 : W (Proc.devRef .tc main_v116) = u) :
    after pieceL W (Proc.devRef .tc main_v117) = lsmTerm u := by
  simp only [pieceL, List.take_succ_cons, List.take_zero, List.drop_succ_cons, List.drop_zero]
  after_results_simp
  rw [h116]
  simp only [Cert.LibTypedRef.ofBuf_toBuf]
  rfl

/-- The result, from contents holding the logits. -/
theorem pL_v117 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal))
    (h116 : W (Proc.devRef .tc main_v116) = val_main_v116 (F := Ideal) x0 x1 x2 x3 x4 x5) :
    after pieceL W (Proc.devRef .tc main_v117) = val_main_v117 (F := Ideal) x0 x1 x2 x3 x4 x5 :=
  (pL_lsm W _ h116).trans rfl

/-! ## The whole line -/

/-- The result buffer after the whole line: the reference's last stage of the starting contents of the arguments. -/
theorem result_eq : after (ops (F := Ideal)) X (Proc.devRef .tc main_v117)
    = val_main_v117 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) := by
  rw [after_ops]
  -- the contents at each cut
  have a1 := p1_v1 X; have a3 := p1_v3 X
  have w13 : after pieceW (after piece1 X) (Proc.devRef .tc main_v13) = val_main_v13 (F := Ideal) (X (Proc.devRef .tc main_arg1)) :=
    pW_v13 (after piece1 X) _ (p1_v9 X) (p1_v12 X) (p1_cst3 X)
  have w1 : after pieceW (after piece1 X) (Proc.devRef .tc main_v1) = val_main_v1 (F := Ideal) (X (Proc.devRef .tc main_arg1)) := (pW_v1 (after piece1 X)).trans a1
  have w3 : after pieceW (after piece1 X) (Proc.devRef .tc main_v3) = val_main_v3 (F := Ideal) (X (Proc.devRef .tc main_arg1)) := (pW_v3 (after piece1 X)).trans a3
  have z29 : after piece2 (after pieceW (after piece1 X)) (Proc.devRef .tc main_v29) = val_main_v29 (F := Ideal) (X (Proc.devRef .tc main_arg1)) :=
    p2_v29 (after pieceW (after piece1 X)) _ w13 w1 w3
  have z1 : after piece2 (after pieceW (after piece1 X)) (Proc.devRef .tc main_v1) = val_main_v1 (F := Ideal) (X (Proc.devRef .tc main_arg1)) := (p2_v1 _).trans w1
  have z3 : after piece2 (after pieceW (after piece1 X)) (Proc.devRef .tc main_v3) = val_main_v3 (F := Ideal) (X (Proc.devRef .tc main_arg1)) := (p2_v3 _).trans w3
  have z0 : after piece2 (after pieceW (after piece1 X)) (Proc.devRef .tc main_arg0) = (X (Proc.devRef .tc main_arg0)) := (p2_arg0 _).trans ((pW_arg0 _).trans (p1_arg0 X))
  have z2 : after piece2 (after pieceW (after piece1 X)) (Proc.devRef .tc main_arg2) = (X (Proc.devRef .tc main_arg2)) := (p2_arg2 _).trans ((pW_arg2 _).trans (p1_arg2 X))
  have z3' : after piece2 (after pieceW (after piece1 X)) (Proc.devRef .tc main_arg3) = (X (Proc.devRef .tc main_arg3)) := (p2_arg3 _).trans ((pW_arg3 _).trans (p1_arg3 X))
  have z4 : after piece2 (after pieceW (after piece1 X)) (Proc.devRef .tc main_arg4) = (X (Proc.devRef .tc main_arg4)) := (p2_arg4 _).trans ((pW_arg4 _).trans (p1_arg4 X))
  have z5 : after piece2 (after pieceW (after piece1 X)) (Proc.devRef .tc main_arg5) = (X (Proc.devRef .tc main_arg5)) := (p2_arg5 _).trans ((pW_arg5 _).trans (p1_arg5 X))
  have u73 := pB_v73 (after piece2 (after pieceW (after piece1 X))) _ _ _ _ z0 z2 z3' z1 z3 z29
  have u1 := (pB_v1 (after piece2 (after pieceW (after piece1 X)))).trans z1
  have u3 := (pB_v3 (after piece2 (after pieceW (after piece1 X)))).trans z3
  have u29 := (pB_v29 (after piece2 (after pieceW (after piece1 X)))).trans z29
  have u4 := (pB_arg4 (after piece2 (after pieceW (after piece1 X)))).trans z4
  have u5 := (pB_arg5 (after piece2 (after pieceW (after piece1 X)))).trans z5
  exact pL_v117 _ _ _ _ _ _ _ (pC_v116 _ _ _ _ _ _ _ u73 u1 u3 u29 u4 u5)

set_option maxHeartbeats 40000000 in
set_option maxRecDepth 65536 in
/-- No operation writes argument 0. -/
theorem keep_arg0 : after (ops (F := Ideal)) X (Proc.devRef .tc main_arg0) = X (Proc.devRef .tc main_arg0) := by
  after_results_simp

set_option maxHeartbeats 40000000 in
set_option maxRecDepth 65536 in
/-- No operation writes argument 1. -/
theorem keep_arg1 : after (ops (F := Ideal)) X (Proc.devRef .tc main_arg1) = X (Proc.devRef .tc main_arg1) := by
  after_results_simp

set_option maxHeartbeats 40000000 in
set_option maxRecDepth 65536 in
/-- No operation writes argument 2. -/
theorem keep_arg2 : after (ops (F := Ideal)) X (Proc.devRef .tc main_arg2) = X (Proc.devRef .tc main_arg2) := by
  after_results_simp

set_option maxHeartbeats 40000000 in
set_option maxRecDepth 65536 in
/-- No operation writes argument 3. -/
theorem keep_arg3 : after (ops (F := Ideal)) X (Proc.devRef .tc main_arg3) = X (Proc.devRef .tc main_arg3) := by
  after_results_simp

set_option maxHeartbeats 40000000 in
set_option maxRecDepth 65536 in
/-- No operation writes argument 4. -/
theorem keep_arg4 : after (ops (F := Ideal)) X (Proc.devRef .tc main_arg4) = X (Proc.devRef .tc main_arg4) := by
  after_results_simp

set_option maxHeartbeats 40000000 in
set_option maxRecDepth 65536 in
/-- No operation writes argument 5. -/
theorem keep_arg5 : after (ops (F := Ideal)) X (Proc.devRef .tc main_arg5) = X (Proc.devRef .tc main_arg5) := by
  after_results_simp

/-- THE RUN: every weakly fair execution of the reference terminates, its result buffer at the last stage of the launch
    arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117)
        = val_main_v117 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v117).trans (result_eq (launchContents m c)),
       (h c main_arg0).trans (keep_arg0 (launchContents m c)),
       (h c main_arg1).trans (keep_arg1 (launchContents m c)),
       (h c main_arg2).trans (keep_arg2 (launchContents m c)),
       (h c main_arg3).trans (keep_arg3 (launchContents m c)),
       (h c main_arg4).trans (keep_arg4 (launchContents m c)),
       (h c main_arg5).trans (keep_arg5 (launchContents m c))⟩)
    (run_seq scopedRefs_eq scopedSems_eq defs main (fun _ => ops) main_eq (fun _ => ops_sub) m ρ)

end Cert.ReferenceIdeal.HandRun

end
-- ==== Proof.KernelRun.lean ====
/-
  The idealized kernel's run, with its RESULT named.

  The program is six segments: three stretches of host operations (the degree normalisation and the two graph
  propagations of layer 1), the first dense-combine region, one more stretch (the two propagations of layer 2), and the
  second dense-combine region, whose output window's array is the program's result. The generated frame runs these
  segments and ends with every unscoped buffer of core `c` at the last boundary's contents `W6 m ρ c`; it then keeps only
  the six argument arrays. Here the same run keeps the result buffer as well: after every weakly fair execution the
  result holds `W6 m ρ c` at the result's reference, and the arguments are as launched.
-/
import proofs.«140460_j43542378447164_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the last
    boundary's contents at its reference and the six argument arrays as launched. -/
theorem run_final : θ_run defs (onTc (τ := τ) (main (F := F))) ⟨m, fun _ => 0, ρ⟩ (fun r => ∀ c : Dev nD,
      r.2.mem ((c.tc : Thread nD τ).loc main_v89) = W6 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v89 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.Spec.lean ====
/-
  The arithmetic of one Chebyshev layer, node by node, on the extended reals.

  A layer takes three feature arrays of the same nodes — the features themselves, their propagation along the graph, and
  twice the propagation of that minus the features — and forms, for node `r` and output channel `j`,

      ∑ₖ T₀[r,k]·W[0,k,j]  +  ∑ₖ T₁[r,k]·W[1,k,j]  +  ∑ₖ T₂[r,k]·W[2,k,j]  +  b[j],

  the three products added in that order and the bias last. The value at node `r` depends on row `r` of each feature
  array and on nothing else of them: this is what lets a block of rows be computed apart from the others. The first layer
  clamps the result below at zero; the second subtracts the row's maximum and then the logarithm of the row's sum of
  exponentials (the logarithm of the softmax along the sixteen channels).
-/
import Idealize.ShloMosaic.PureOps.Ideal
import Idealize.ShloMosaic.Lib.ValueIdx

noncomputable section

namespace Cert.Spec

open Idealize.ShloMosaic Idealize.ShloMosaic.ValueIdx

/-- The dense combine of one node: its three feature rows (64 entries each) against the three 64×`n` weight matrices,
    the products added in order, then the bias. -/
def combineRow {n : ℕ} (r0 r1 r2 : Fin 64 → EReal) (W : (⟨3, ![3, 64, n]⟩ : Shape).Idx → EReal)
    (b : (⟨1, ![n]⟩ : Shape).Idx → EReal) (j : Fin n) : EReal :=
  (∑ k : Fin 64, r0 k * W (ix3 (0 : Fin 3) k j)) + (∑ k : Fin 64, r1 k * W (ix3 (1 : Fin 3) k j))
    + (∑ k : Fin 64, r2 k * W (ix3 (2 : Fin 3) k j)) + b (ix1 j)

/-- Row `r` of a feature array of `N` nodes. -/
def rowOf {N : ℕ} (X : (⟨2, ![N, 64]⟩ : Shape).Idx → EReal) (r : Fin N) : Fin 64 → EReal := fun k => X (ix2 r k)

/-- The first layer at node `r`, channel `j`: the combine clamped below at zero. -/
def hiddenAt {N : ℕ} (X0 X1 X2 : (⟨2, ![N, 64]⟩ : Shape).Idx → EReal) (W : (⟨3, ![3, 64, 64]⟩ : Shape).Idx → EReal)
    (b : (⟨1, ![64]⟩ : Shape).Idx → EReal) (r : Fin N) (j : Fin 64) : EReal :=
  max (combineRow (rowOf X0 r) (rowOf X1 r) (rowOf X2 r) W b j) (Ideal.ofBits .f32 0x00000000#32)

/-- The first layer as an array over the nodes. -/
def hidden {N : ℕ} (X0 X1 X2 : (⟨2, ![N, 64]⟩ : Shape).Idx → EReal) (W : (⟨3, ![3, 64, 64]⟩ : Shape).Idx → EReal)
    (b : (⟨1, ![64]⟩ : Shape).Idx → EReal) : (⟨2, ![N, 64]⟩ : Shape).Idx → EReal :=
  fun i => hiddenAt X0 X1 X2 W b ⟨(i 0).val, (i 0).isLt⟩ ⟨(i 1).val, (i 1).isLt⟩

theorem hidden_ix2 {N : ℕ} (X0 X1 X2 : (⟨2, ![N, 64]⟩ : Shape).Idx → EReal) (W : (⟨3, ![3, 64, 64]⟩ : Shape).Idx → EReal)
    (b : (⟨1, ![64]⟩ : Shape).Idx → EReal) (r : Fin N) (j : Fin 64) :
    hidden X0 X1 X2 W b (ix2 r j) = hiddenAt X0 X1 X2 W b r j := rfl

/-- The logarithm of the softmax of one row of sixteen numbers: the row less its maximum (the fold of `max` from −∞),
    less the logarithm of the sum, from zero, of the exponentials of that. -/
def logSoftmaxRow (a : Fin 16 → EReal) (j : Fin 16) : EReal :=
  (a j - Finset.univ.fold max (Ideal.ofBits .f32 0xFF800000#32) a)
    - Ideal.log (∑ k : Fin 16, Ideal.exp (a k - Finset.univ.fold max (Ideal.ofBits .f32 0xFF800000#32) a))

/-- The second layer at node `r`, channel `j`. -/
def outAt {N : ℕ} (X0 X1 X2 : (⟨2, ![N, 64]⟩ : Shape).Idx → EReal) (W : (⟨3, ![3, 64, 16]⟩ : Shape).Idx → EReal)
    (b : (⟨1, ![16]⟩ : Shape).Idx → EReal) (r : Fin N) (j : Fin 16) : EReal :=
  logSoftmaxRow (combineRow (rowOf X0 r) (rowOf X1 r) (rowOf X2 r) W b) j

/-- The second layer as an array over the nodes. -/
def out {N : ℕ} (X0 X1 X2 : (⟨2, ![N, 64]⟩ : Shape).Idx → EReal) (W : (⟨3, ![3, 64, 16]⟩ : Shape).Idx → EReal)
    (b : (⟨1, ![16]⟩ : Shape).Idx → EReal) : (⟨2, ![N, 16]⟩ : Shape).Idx → EReal :=
  fun i => outAt X0 X1 X2 W b ⟨(i 0).val, (i 0).isLt⟩ ⟨(i 1).val, (i 1).isLt⟩

theorem out_ix2 {N : ℕ} (X0 X1 X2 : (⟨2, ![N, 64]⟩ : Shape).Idx → EReal) (W : (⟨3, ![3, 64, 16]⟩ : Shape).Idx → EReal)
    (b : (⟨1, ![16]⟩ : Shape).Idx → EReal) (r : Fin N) (j : Fin 16) :
    out X0 X1 X2 W b (ix2 r j) = outAt X0 X1 X2 W b r j := rfl

/-- The maximum with the fold's own starting value changes nothing: the fold is at least where it started. -/
theorem max_start_fold {n : ℕ} (s : EReal) (a : Fin n → EReal) :
    max s (Finset.univ.fold max s a) = Finset.univ.fold max s a :=
  max_eq_right ((Finset.le_fold_max s).mpr (Or.inl le_rfl))

end Cert.Spec

end
-- ==== Proof.BlockProduct.lean ====
/-
  A block of node features times a weight matrix, read at one entry.

  The kernel body multiplies a block of 10000 nodes' features [10000,64] by one 64×n slab of the stacked weights on the
  matrix unit, into an accumulator of zeros. On the extended reals that product at node `p` and output channel `q` is the
  plain sum over the 64 input channels of feature times weight; the narrowing of both operands to bf16 beforehand is the
  identity there, and dropping the slab's leading unit axis only renames the index.
-/
import proofs.«140460_j43542378447164_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## Blocks of 10000 nodes against a 64×64 weight matrix -/

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a block of node features with a 64×64 matrix, accumulated from zero, at node `p` of the block and
    channel `q`: the sum over the 64 input channels `k` of the node's feature `k` times the matrix at (`k`, `q`). -/
theorem product64_apply {φ₁ φ₂ : FTy} (X : FVec Ideal S10000x64 φ₁) (M : FVec Ideal S64x64 φ₂) (p : Fin 10000) (q : Fin 64) :
    matmul dot_S10000x64_S64x64_S10000x64_1_0_0_1_n_n none X M (constant (F := Ideal) S10000x64 .f32 0x00000000#32) (ix2 p q)
      = ∑ k : Fin 64, X (ix2 p k) * M (ix2 k q) := by
  refine (Ideal.matmul_constant_zero_apply dot_S10000x64_S64x64_S10000x64_1_0_0_1_n_n none X M (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The same product as the kernel body spells it: both operands narrowed to bf16 (the identity on extended reals), the
    matrix one slab [1,64,64] of the stacked weights with its unit axis dropped. -/
theorem slabProduct64_apply (X : FVec Ideal S10000x64 .f32) (W : FVec Ideal S1x64x64 .f32) (p : Fin 10000) (q : Fin 64) :
    matmul dot_S10000x64_S64x64_S10000x64_1_0_0_1_n_n none (truncf .bf16 X bitsLt_bf16_f32)
        (truncf .bf16 (shapeCast S64x64 W shapeCasts_S1x64x64_S64x64) bitsLt_bf16_f32)
        (constant (F := Ideal) S10000x64 .f32 0x00000000#32) (ix2 p q)
      = ∑ k : Fin 64, X (ix2 p k) * W (ix3 (0 : Fin 1) k q) := by
  rw [product64_apply]
  refine Finset.sum_congr rfl fun k _ => ?_
  rw [truncf_apply, truncf_apply, shapeCast_1ab_ab_apply]

/-! ## Blocks of 10000 nodes against a 64×16 weight matrix -/

theorem lhs16_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs16_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
theorem rhs16_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
theorem rhs16_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The product of a block of node features with a 64×16 matrix, accumulated from zero, at node `p` of the block and
    channel `q`: the sum over the 64 input channels `k` of the node's feature `k` times the matrix at (`k`, `q`). -/
theorem product16_apply {φ₁ φ₂ : FTy} (X : FVec Ideal S10000x64 φ₁) (M : FVec Ideal S64x16 φ₂) (p : Fin 10000) (q : Fin 16) :
    matmul dot_S10000x64_S64x16_S10000x16_1_0_0_1_n_n none X M (constant (F := Ideal) S10000x16 .f32 0x00000000#32) (ix2 p q)
      = ∑ k : Fin 64, X (ix2 p k) * M (ix2 k q) := by
  refine (Ideal.matmul_constant_zero_apply dot_S10000x64_S64x16_S10000x16_1_0_0_1_n_n none X M (ix2 p q)).trans ?_
  rw [← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx (ix2 p q) ((ValueIdx.contrEquiv1 dot_S10000x64_S64x16_S10000x16_1_0_0_1_n_n 64 rfl rfl).symm k) = ix2 p k := funext fun a => Fin.ext (by
    match a with
    | ⟨0, _⟩ => exact lhs16_0 _ _
    | ⟨1, _⟩ => exact (lhs16_1 _ _).trans hk)
  have er : dot_S10000x64_S64x16_S10000x16_1_0_0_1_n_n.rhsIdx (ix2 p q) ((ValueIdx.contrEquiv1 dot_S10000x64_S64x16_S10000x16_1_0_0_1_n_n 64 rfl rfl).symm k) = ix2 k q := funext fun a => Fin.ext (by
    match a with
    | ⟨0, _⟩ => exact (rhs16_0 _ _).trans hk
    | ⟨1, _⟩ => exact rhs16_1 _ _)
  rw [el, er]

/-- The same product as the kernel body spells it: both operands narrowed to bf16 (the identity on extended reals), the
    matrix one slab [1,64,16] of the stacked weights with its unit axis dropped. -/
theorem slabProduct16_apply (X : FVec Ideal S10000x64 .f32) (W : FVec Ideal S1x64x16 .f32) (p : Fin 10000) (q : Fin 16) :
    matmul dot_S10000x64_S64x16_S10000x16_1_0_0_1_n_n none (truncf .bf16 X bitsLt_bf16_f32)
        (truncf .bf16 (shapeCast S64x16 W shapeCasts_S1x64x16_S64x16) bitsLt_bf16_f32)
        (constant (F := Ideal) S10000x16 .f32 0x00000000#32) (ix2 p q)
      = ∑ k : Fin 64, X (ix2 p k) * W (ix3 (0 : Fin 1) k q) := by
  rw [product16_apply]
  refine Finset.sum_congr rfl fun k _ => ?_
  rw [truncf_apply, truncf_apply, shapeCast_1ab_ab_apply]

end Cert.KernelIdeal.Block

end
-- ==== Proof.LibSlabLoad.lean ====
/-
  A block loaded through a unit-stride rectangle that takes ONE slab along the leading axis (all of the other axes),
  read at an index given by coordinates: the loaded value at `(0, i, j)` (or `(0, j)`) is the source at `(p, i, j)`
  (or `(p, j)`), `p` the slab's offset. For any element type and any extents.
-/
import Idealize.ShloMosaic.Lib.Pipeline.FrameBody
import Idealize.ShloMosaic.Lib.ValueIdx

namespace Cert.LibSlabLoad

open Idealize.ShloMosaic Idealize.ShloMosaic.ValueIdx

variable {Val : EltTy → Type} {e : EltTy}

/-- Slab `p` of a rank-3 array `[n, a, b]`, loaded as a `[1, a, b]` block: the block at `(0, i, j)` is the array at `(p, i, j)`. -/
theorem ld_slab3 {n a b : ℕ} (X : (⟨3, ![n, a, b]⟩ : Shape).Idx → Val e) (p : ℕ)
    (inb : ∀ ax, (![p, 0, 0] : Fin 3 → ℕ) ax + (⟨3, ![1, a, b]⟩ : Shape).size ax ≤ (⟨3, ![n, a, b]⟩ : Shape).size ax)
    (i : Fin a) (j : Fin b) :
    View.ld X (Rect.unit ![p, 0, 0] (⟨3, ![1, a, b]⟩ : Shape).size inb) (ix3 (0 : Fin 1) i j)
      = X (ix3 (⟨p, inb 0⟩ : Fin n) i j) := by
  show X _ = X _
  refine congrArg X (funext fun ax => Fin.ext ?_)
  match ax with
  | ⟨0, _⟩ => show p + 1 * 0 = p; omega
  | ⟨1, _⟩ => show 0 + 1 * i.val = i.val; omega
  | ⟨2, _⟩ => show 0 + 1 * j.val = j.val; omega

/-- Row `p` of a matrix `[n, b]`, loaded as a `[1, b]` block: the block at `(0, j)` is the matrix at `(p, j)`. -/
theorem ld_row2 {n b : ℕ} (X : (⟨2, ![n, b]⟩ : Shape).Idx → Val e) (p : ℕ)
    (inb : ∀ ax, (![p, 0] : Fin 2 → ℕ) ax + (⟨2, ![1, b]⟩ : Shape).size ax ≤ (⟨2, ![n, b]⟩ : Shape).size ax)
    (j : Fin b) :
    View.ld X (Rect.unit ![p, 0] (⟨2, ![1, b]⟩ : Shape).size inb) (ix2 (0 : Fin 1) j)
      = X (ix2 (⟨p, inb 0⟩ : Fin n) j) := by
  show X _ = X _
  refine congrArg X (funext fun ax => Fin.ext ?_)
  match ax with
  | ⟨0, _⟩ => show p + 1 * 0 = p; omega
  | ⟨1, _⟩ => show 0 + 1 * j.val = j.val; omega

end Cert.LibSlabLoad
-- ==== Proof.HiddenBlock.lean ====
/-
  What the first region's body leaves in its output block, entry by entry.

  At a grid point the body loads a block of 10000 nodes of each of the three feature arrays, the three 64×64 slabs of the
  stacked weights and the bias, forms the three block products on the matrix unit from zero accumulators, adds them in
  order, adds the bias (cast to one row and spread over the 10000 rows), clamps below at zero and stores the whole block.
  So the stored block at node `p`, channel `q` is the layer formula of Spec.lean at the block's own row `p`:
  `hiddenAt` of the three blocks read as arrays of 10000 nodes.
-/
import proofs.«140460_j43542378447164_1_alg».proof.Proof.Gen.KernelIdeal.Frame
import proofs.«140460_j43542378447164_1_alg».proof.Proof.Spec
import proofs.«140460_j43542378447164_1_alg».proof.Proof.BlockProduct
import proofs.«140460_j43542378447164_1_alg».proof.Proof.LibSlabLoad

noncomputable section

namespace Cert.KernelIdeal.Block

open Cert.KernelIdeal Cert.KernelIdeal.Gen Idealize.ShloMosaic Idealize.ShloMosaic.ValueIdx

theorem zero2 : (![0, 0] : Fin 2 → Nat) = fun _ => 0 := funext fun a => by fin_cases a <;> rfl
theorem zero1 : (![0] : Fin 1 → Nat) = fun _ => 0 := funext fun a => by fin_cases a <;> rfl

/-- The first region's stored block at node `p` of the block and channel `q`. -/
theorem hidden_block (x0 x1 x2 : Vec Ideal S10000x64 .f32) (x3 : Vec Ideal S3x64x64 .f32) (x4 : Vec Ideal S64 .f32)
    (p : Fin 10000) (q : Fin 64) :
    out0_5 (F := Ideal) x0 x1 x2 x3 x4 (ix2 p q) = Cert.Spec.hiddenAt x0 x1 x2 x3 x4 p q := by
  unfold out0_5
  rw [View.canon_unit_zero zero2]
  simp only [View.ld_unit_zero (S := S10000x64) zero2, View.ld_unit_zero (S := S64) zero1]
  unfold k0_pay1
  rw [maximumf_apply, addf_apply, addf_apply, addf_apply, broadcast_apply]
  rw [shapeCast_self, shapeCast_self]
  rw [slabProduct64_apply, slabProduct64_apply, slabProduct64_apply]
  rw [broadcastTo_1b_ab_apply, shapeCast_a_1a_apply]
  have e0 : ∀ k : Fin 64, View.ld x3 r0_1 (ix3 (0 : Fin 1) k q) = x3 (ix3 (0 : Fin 3) k q) :=
    fun k => Cert.LibSlabLoad.ld_slab3 x3 0 _ k q
  have e1 : ∀ k : Fin 64, View.ld x3 r0_2 (ix3 (0 : Fin 1) k q) = x3 (ix3 (1 : Fin 3) k q) :=
    fun k => Cert.LibSlabLoad.ld_slab3 x3 1 _ k q
  have e2 : ∀ k : Fin 64, View.ld x3 r0_3 (ix3 (0 : Fin 1) k q) = x3 (ix3 (2 : Fin 3) k q) :=
    fun k => Cert.LibSlabLoad.ld_slab3 x3 2 _ k q
  simp only [e0, e1, e2]
  unfold Cert.Spec.hiddenAt Cert.Spec.combineRow Cert.Spec.rowOf
  rfl

end Cert.KernelIdeal.Block

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.OutBlock.lean ====
/-
  What the second region's body leaves in its output block, entry by entry.

  The body forms the block's logits [10000,16] exactly as the first region forms its sums — three block products from
  zero accumulators added in order, then the bias — and then, row by row: the row's maximum (a lane reduction from −∞,
  kept as a column and spread back over the sixteen channels) is subtracted; the exponentials of that are summed along
  the row from zero (again kept as a column), the logarithm of the sum is spread back and subtracted. So the stored block
  at node `p`, channel `q` is Spec.lean's `logSoftmaxRow` of the block's own row `p` of logits.
-/
import proofs.«140460_j43542378447164_1_alg».proof.Proof.Gen.KernelIdeal.Frame
import proofs.«140460_j43542378447164_1_alg».proof.Proof.Spec
import proofs.«140460_j43542378447164_1_alg».proof.Proof.BlockProduct
import proofs.«140460_j43542378447164_1_alg».proof.Proof.HiddenBlock
import proofs.«140460_j43542378447164_1_alg».proof.Proof.LibSlabLoad
import proofs.«140460_j43542378447164_1_alg».proof.Proof.LibKeepdimsCol

noncomputable section

namespace Cert.KernelIdeal.Block

open Cert.KernelIdeal Cert.KernelIdeal.Gen Idealize.ShloMosaic Idealize.ShloMosaic.ValueIdx Cert.LibKeepdimsCol

/-- In a matrix reduced along its rows, the source index over row `p` with coordinate `k` on the reduced axis is (`p`, `k`). -/
theorem lift_lastAxis {a b : ℕ} (h : (⟨2, ![a, b]⟩ : Shape).Reduces [(1 : Fin 2)] ⟨1, ![a]⟩) (p : Fin a)
    (k : Fin ((⟨2, ![a, b]⟩ : Shape).size (1 : Fin 2))) :
    h.lift (ix1 p) k = ix2 p (⟨k.val, k.isLt⟩ : Fin b) :=
  funext fun c => Fin.ext (by match c with | ⟨0, _⟩ => rfl | ⟨1, _⟩ => rfl)

theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl

/-- A lane sum from zero along the sixteen channels, read at node `p`: the sum of the row. -/
theorem rowSum_apply (src : FVec Ideal S10000x16 .f32) (hφ : FKind.Formats FTy.f32)
    (hacc : (0x00000000#32 : BitVec 32) = 0x00000000#32) (p : Fin 10000) :
    multiReduction .add [1] S10000 src 0x00000000#32 reduces_S10000x16_S10000 hφ hacc (ix1 p)
      = ∑ k : Fin 16, src (ix2 p k) := by
  refine (Ideal.multiReduction_add_single src 0x00000000#32 reduces_S10000x16_S10000 hφ hacc (ix1 p)).trans ?_
  exact Finset.sum_congr rfl fun k _ => congrArg src (lift_lastAxis reduces_S10000x16_S10000 p k)

/-- A lane maximum from −∞ along the sixteen channels, read at node `p`: the fold of `max` over the row. -/
theorem rowMax_apply (src : FVec Ideal S10000x16 .f32) (hφ : FKind.Formats FTy.f32)
    (hacc : (0xFF800000#32 : BitVec 32) = 0xFF800000#32) (p : Fin 10000) :
    multiReduction .maximumf [1] S10000 src 0xFF800000#32 reduces_S10000x16_S10000 hφ hacc (ix1 p)
      = Finset.univ.fold max (Ideal.ofBits .f32 0xFF800000#32) (fun k : Fin 16 => src (ix2 p k)) := by
  refine (Ideal.multiReduction_maximumf_single src 0xFF800000#32 reduces_S10000x16_S10000 hφ hacc (ix1 p)).trans ?_
  have e : (src ∘ reduces_S10000x16_S10000.lift (ix1 p)) = fun k => src (ix2 p (⟨k.val, k.isLt⟩ : Fin 16)) :=
    funext fun k => congrArg src (lift_lastAxis reduces_S10000x16_S10000 p k)
  rw [e]
  rfl

/-- The block's logits as one vector of the loaded blocks. -/
def logitsVec (v0 v3 v6 : Vec Ideal S10000x64 .f32) (v9 v12 v15 : Vec Ideal S1x64x16 .f32) (v23 : Vec Ideal S16 .f32) :
    FVec Ideal S10000x16 .f32 :=
  addf (addf (addf
      (matmul dot_S10000x64_S64x16_S10000x16_1_0_0_1_n_n none (truncf .bf16 (shapeCast S10000x64 v0 shapeCasts_S10000x64_S10000x64) bitsLt_bf16_f32)
        (truncf .bf16 (shapeCast S64x16 v9 shapeCasts_S1x64x16_S64x16) bitsLt_bf16_f32) (constant (F := Ideal) S10000x16 .f32 0x00000000#32))
      (matmul dot_S10000x64_S64x16_S10000x16_1_0_0_1_n_n none (truncf .bf16 (shapeCast S10000x64 v3 shapeCasts_S10000x64_S10000x64) bitsLt_bf16_f32)
        (truncf .bf16 (shapeCast S64x16 v12 shapeCasts_S1x64x16_S64x16) bitsLt_bf16_f32) (constant (F := Ideal) S10000x16 .f32 0x00000000#32)))
      (matmul dot_S10000x64_S64x16_S10000x16_1_0_0_1_n_n none (truncf .bf16 (shapeCast S10000x64 v6 shapeCasts_S10000x64_S10000x64) bitsLt_bf16_f32)
        (truncf .bf16 (shapeCast S64x16 v15 shapeCasts_S1x64x16_S64x16) bitsLt_bf16_f32) (constant (F := Ideal) S10000x16 .f32 0x00000000#32)))
    (broadcastTo S10000x16 (shapeCast S1x16 v23 shapeCasts_S16_S1x16) broadcasts_S1x16_S10000x16)

/-- The logits at node `p`, channel `k`: the three sums over the input channels, then the bias. -/
theorem logitsVec_apply (v0 v3 v6 : Vec Ideal S10000x64 .f32) (v9 v12 v15 : Vec Ideal S1x64x16 .f32) (v23 : Vec Ideal S16 .f32)
    (p : Fin 10000) (k : Fin 16) :
    logitsVec v0 v3 v6 v9 v12 v15 v23 (ix2 p k)
      = (∑ c : Fin 64, v0 (ix2 p c) * v9 (ix3 (0 : Fin 1) c k)) + (∑ c : Fin 64, v3 (ix2 p c) * v12 (ix3 (0 : Fin 1) c k))
        + (∑ c : Fin 64, v6 (ix2 p c) * v15 (ix3 (0 : Fin 1) c k)) + v23 (ix1 k) := by
  unfold logitsVec
  rw [addf_apply, addf_apply, addf_apply]
  rw [shapeCast_self, shapeCast_self, shapeCast_self]
  rw [slabProduct16_apply, slabProduct16_apply, slabProduct16_apply]
  rw [broadcastTo_1b_ab_apply, shapeCast_a_1a_apply]

/-- The body's row-wise logarithm of the softmax, of any block of logits. -/
def lsmVec (A : FVec Ideal S10000x16 .f32) : FVec Ideal S10000x16 .f32 :=
  subf
    (subf A (broadcastTo S10000x16 (shapeCast S10000x1
      (multiReduction .maximumf [1] S10000 A 0xFF800000#32 reduces_S10000x16_S10000 (.inl rfl) rfl) shapeCasts_S10000_S10000x1) broadcasts_S10000x1_S10000x16))
    (broadcastTo S10000x16 (log (shapeCast S10000x1
      (multiReduction .add [1] S10000
        (exp (subf A (broadcastTo S10000x16 (shapeCast S10000x1
          (multiReduction .maximumf [1] S10000 A 0xFF800000#32 reduces_S10000x16_S10000 (.inl rfl) rfl) shapeCasts_S10000_S10000x1) broadcasts_S10000x1_S10000x16)))
        0x00000000#32 reduces_S10000x16_S10000 (.inl rfl) rfl) shapeCasts_S10000_S10000x1)) broadcasts_S10000x1_S10000x16)

/-- Read at node `p`, channel `q`, it is the logarithm of the softmax of row `p`. -/
theorem lsmVec_apply (A : FVec Ideal S10000x16 .f32) (p : Fin 10000) (q : Fin 16) :
    lsmVec A (ix2 p q) = Cert.Spec.logSoftmaxRow (fun k => A (ix2 p k)) q := by
  unfold lsmVec
  rw [subf_apply, subf_apply, broadcastTo_a1_ab_apply, shapeCast_a_a1_apply, broadcastTo_a1_ab_apply, log_at,
    shapeCast_a_a1_apply]
  rw [rowSum_apply, rowMax_apply]
  simp only [exp_at, subf_apply, broadcastTo_a1_ab_apply, shapeCast_a_a1_apply]
  rw [rowMax_apply]
  unfold Cert.Spec.logSoftmaxRow
  rfl

/-- The second region's stored block at node `p` of the block and channel `q`. -/
theorem out_block (x0 x1 x2 : Vec Ideal S10000x64 .f32) (x3 : Vec Ideal S3x64x16 .f32) (x4 : Vec Ideal S16 .f32)
    (p : Fin 10000) (q : Fin 16) :
    out1_5 (F := Ideal) x0 x1 x2 x3 x4 (ix2 p q) = Cert.Spec.outAt x0 x1 x2 x3 x4 p q := by
  unfold out1_5
  rw [View.canon_unit_zero zero2]
  simp only [View.ld_unit_zero (S := S10000x64) zero2, View.ld_unit_zero (S := S16) zero1, View.ld_unit_zero (S := S10000x16) zero2]
  show lsmVec (logitsVec x0 x1 x2 (View.ld x3 r1_1) (View.ld x3 r1_2) (View.ld x3 r1_3) x4) (ix2 p q) = _
  rw [lsmVec_apply]
  unfold Cert.Spec.outAt
  refine congrArg (fun a => Cert.Spec.logSoftmaxRow a q) (funext fun k => ?_)
  rw [logitsVec_apply]
  have e0 : ∀ c : Fin 64, View.ld x3 r1_1 (ix3 (0 : Fin 1) c k) = x3 (ix3 (0 : Fin 3) c k) :=
    fun c => Cert.LibSlabLoad.ld_slab3 x3 0 _ c k
  have e1 : ∀ c : Fin 64, View.ld x3 r1_2 (ix3 (0 : Fin 1) c k) = x3 (ix3 (1 : Fin 3) c k) :=
    fun c => Cert.LibSlabLoad.ld_slab3 x3 1 _ c k
  have e2 : ∀ c : Fin 64, View.ld x3 r1_3 (ix3 (0 : Fin 1) c k) = x3 (ix3 (2 : Fin 3) c k) :=
    fun c => Cert.LibSlabLoad.ld_slab3 x3 2 _ c k
  simp only [e0, e1, e2]
  unfold Cert.Spec.combineRow Cert.Spec.rowOf
  rfl

end Cert.KernelIdeal.Block

end
-- ==== Proof.RegionValue.lean ====
/-
  From blocks to arrays: what each dense-combine region leaves in its output array.

  A region runs its body at ten grid points. Point `t` is handed rows `t·10000 … t·10000 + 9999` of each of its three
  feature arrays, and the whole of the weights and of the bias; it writes back rows `t·10000 …` of the output. Because
  the layer's value at a node depends only on that node's row of each feature array (Spec.lean), the block a point writes
  is the corresponding block of ONE array: the layer applied to the whole entry arrays. The ten blocks tile the 100000
  nodes, so after the region the output array IS that array. Stated at any contents `V` the region is entered with.
-/
import proofs.«140460_j43542378447164_1_alg».proof.Proof.Gen.KernelIdeal.Frame
import proofs.«140460_j43542378447164_1_alg».proof.Proof.Spec
import proofs.«140460_j43542378447164_1_alg».proof.Proof.HiddenBlock
import proofs.«140460_j43542378447164_1_alg».proof.Proof.OutBlock
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The first layer's value at a node depends on the node's three feature rows, the weights and the bias only. -/
theorem hiddenAt_congr {N N' : ℕ} {X0 X1 X2 : (⟨2, ![N, 64]⟩ : Shape).Idx → EReal} {Y0 Y1 Y2 : (⟨2, ![N', 64]⟩ : Shape).Idx → EReal}
    {W W' : (⟨3, ![3, 64, 64]⟩ : Shape).Idx → EReal} {b b' : (⟨1, ![64]⟩ : Shape).Idx → EReal} {r : Fin N} {r' : Fin N'}
    (hW : W = W') (hb : b = b') (h0 : Cert.Spec.rowOf X0 r = Cert.Spec.rowOf Y0 r') (h1 : Cert.Spec.rowOf X1 r = Cert.Spec.rowOf Y1 r')
    (h2 : Cert.Spec.rowOf X2 r = Cert.Spec.rowOf Y2 r') (j : Fin 64) :
    Cert.Spec.hiddenAt X0 X1 X2 W b r j = Cert.Spec.hiddenAt Y0 Y1 Y2 W' b' r' j := by
  subst hW hb
  unfold Cert.Spec.hiddenAt
  rw [h0, h1, h2]

/-- So does the second layer's. -/
theorem outAt_congr {N N' : ℕ} {X0 X1 X2 : (⟨2, ![N, 64]⟩ : Shape).Idx → EReal} {Y0 Y1 Y2 : (⟨2, ![N', 64]⟩ : Shape).Idx → EReal}
    {W W' : (⟨3, ![3, 64, 16]⟩ : Shape).Idx → EReal} {b b' : (⟨1, ![16]⟩ : Shape).Idx → EReal} {r : Fin N} {r' : Fin N'}
    (hW : W = W') (hb : b = b') (h0 : Cert.Spec.rowOf X0 r = Cert.Spec.rowOf Y0 r') (h1 : Cert.Spec.rowOf X1 r = Cert.Spec.rowOf Y1 r')
    (h2 : Cert.Spec.rowOf X2 r = Cert.Spec.rowOf Y2 r') (j : Fin 16) :
    Cert.Spec.outAt X0 X1 X2 W b r j = Cert.Spec.outAt Y0 Y1 Y2 W' b' r' j := by
  subst hW hb
  unfold Cert.Spec.outAt
  rw [h0, h1, h2]

variable (V : (c : Dev nD) → (b : Ref sig .tc) → Buf (Elt Ideal) ((c : Thread nD τ).loc b))

/-! # Region 0: the first dense combine -/

/-- The printed index maps over the ten grid points: every feature window and the output window take block `t` of their
    rows at point `t`; the weights and the bias are one block, the whole array, at every point. -/
theorem idx0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

theorem lt0 (t : Fin cfg0.N) : t.val < 10 := lt_of_lt_of_eq t.isLt (show cfg0.N = 10 from N_0)

/-- The node that row `p` of point `t`'s block is. -/
def node0 (t : Fin cfg0.N) (p : Fin 10000) : Fin 100000 :=
  ⟨t.val * 10000 + p.val, by have := lt0 t; have := p.isLt; omega⟩

/-- Feature window 0's block at point `t`, read at row `p`, channel `k`: its array at node `t·10000 + p`. -/
theorem feat0_0 (c : Dev nD) (t : Fin cfg0.N) (p : Fin 10000) (k : Fin 64) :
    iblk0 V c 0 t (ix2 p k) = V c main_arg0 (ix2 (node0 t p) k) := by
  obtain ⟨e00, e01, e10, e11, e20, e21, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- Feature window 1's block at point `t`, read at row `p`, channel `k`: its array at node `t·10000 + p`. -/
theorem feat0_1 (c : Dev nD) (t : Fin cfg0.N) (p : Fin 10000) (k : Fin 64) :
    iblk0 V c 1 t (ix2 p k) = V c main_v42 (ix2 (node0 t p) k) := by
  obtain ⟨e00, e01, e10, e11, e20, e21, -⟩ := idx0 t
  show V c main_v42 (((cfg0.win 1).blk t).view.emb (ix2 p k)) = _
  refine congrArg (V c main_v42) (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * k.val = k.val; omega

/-- Feature window 2's block at point `t`, read at row `p`, channel `k`: its array at node `t·10000 + p`. -/
theorem feat0_2 (c : Dev nD) (t : Fin cfg0.N) (p : Fin 10000) (k : Fin 64) :
    iblk0 V c 2 t (ix2 p k) = V c main_v58 (ix2 (node0 t p) k) := by
  obtain ⟨e00, e01, e10, e11, e20, e21, -⟩ := idx0 t
  show V c main_v58 (((cfg0.win 2).blk t).view.emb (ix2 p k)) = _
  refine congrArg (V c main_v58) (funext fun a => Fin.ext ?_)
  match a with
  | ⟨0, _⟩ => show win0_2.index t (0 : Fin 2) * 10000 + 1 * p.val = t.val * 10000 + p.val; omega
  | ⟨1, _⟩ => show win0_2.index t (1 : Fin 2) * 64 + 1 * k.val = k.val; omega

/-- The weights' block is the whole stacked array at every point. -/
theorem weights0 (c : Dev nD) (t : Fin cfg0.N) : iblk0 V c 3 t = V c main_arg2 := by
  obtain ⟨-, -, -, -, -, -, e30, e31, e32, -⟩ := idx0 t
  funext y
  show V c main_arg2 (((cfg0.win 3).blk t).view.emb y) = V c main_arg2 y
  refine congrArg (V c main_arg2) (funext fun a => Fin.ext ?_)
  match a with
  | ⟨0, _⟩ => show win0_3.index t (0 : Fin 3) * 3 + 1 * (y 0).val = (y 0).val; omega
  | ⟨1, _⟩ => show win0_3.index t (1 : Fin 3) * 64 + 1 * (y 1).val = (y 1).val; omega
  | ⟨2, _⟩ => show win0_3.index t (2 : Fin 3) * 64 + 1 * (y 2).val = (y 2).val; omega

/-- So is the bias's. -/
theorem bias0 (c : Dev nD) (t : Fin cfg0.N) : iblk0 V c 4 t = V c main_arg3 := by
  obtain ⟨-, -, -, -, -, -, -, -, -, e4, -⟩ := idx0 t
  funext y
  show V c main_arg3 (((cfg0.win 4).blk t).view.emb y) = V c main_arg3 y
  refine congrArg (V c main_arg3) (funext fun a => Fin.ext ?_)
  match a with
  | ⟨0, _⟩ => show win0_4.index t (0 : Fin 1) * 64 + 1 * (y 0).val = (y 0).val; omega

/-- WHAT POINT `t` WRITES BACK is block `t` of the layer's array of the region's entry arrays: the stored block at row `p`
    is the layer's formula on the blocks' row `p`, which is node `t·10000 + p`'s row of each feature array. -/
theorem flushed0 (c : Dev nD) (t : Fin cfg0.N) :
    (dat0 V c).flushed 5 t = ((cfg0.win 5).blk t).view.read (Elt Ideal)
      (Cert.Spec.hidden (V c main_arg0) (V c main_v42) (V c main_v58) (V c main_arg2) (V c main_arg3)) := by
  show (cfg0.win 5).cut (grid0.coords t) ((dat0 V c).after 5 t) = _
  rw [after0_5]
  funext y
  obtain ⟨p, q, rfl⟩ : ∃ (p : Fin 10000) (q : Fin 64), y = ix2 p q :=
    ⟨⟨(y 0).val, (y 0).isLt⟩, ⟨(y 1).val, (y 1).isLt⟩, funext fun a => by match a with | ⟨0, _⟩ => rfl | ⟨1, _⟩ => rfl⟩
  show out0_5 (iblk0 V c 0 t) (iblk0 V c 1 t) (iblk0 V c 2 t) (iblk0 V c 3 t) (iblk0 V c 4 t) (ix2 p q)
      = Cert.Spec.hidden (V c main_arg0) (V c main_v42) (V c main_v58) (V c main_arg2) (V c main_arg3) (((cfg0.win 5).blk t).view.emb (ix2 p q))
  refine (Cert.KernelIdeal.Block.hidden_block (iblk0 V c 0 t) (iblk0 V c 1 t) (iblk0 V c 2 t) (iblk0 V c 3 t) (iblk0 V c 4 t) p q).trans ?_
  have he : ((cfg0.win 5).blk t).view.emb (ix2 p q) = ix2 (node0 t p) q := by
    obtain ⟨-, -, -, -, -, -, -, -, -, -, e50, e51⟩ := idx0 t
    refine funext fun a => Fin.ext ?_
    match a with
    | ⟨0, _⟩ => show win0_5.index t (0 : Fin 2) * 10000 + 1 * p.val = t.val * 10000 + p.val; omega
    | ⟨1, _⟩ => show win0_5.index t (1 : Fin 2) * 64 + 1 * q.val = q.val; omega
  rw [he, Cert.Spec.hidden_ix2]
  exact hiddenAt_congr (weights0 V c t) (bias0 V c t)
    (funext fun k => feat0_0 V c t p k) (funext fun k => feat0_1 V c t p k) (funext fun k => feat0_2 V c t p k) q

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v59).slice (win0_5.rect t)).set ↔ _
  rw [View.set_slice_whole, Rect.mem_set_unit]
  exact Iff.rfl

/-- The ten blocks of 10000 rows tile the 100000 nodes: node `r` is in the block of point `r / 10000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 10000 < cfg0.N := by rw [show cfg0.N = 10 from N_0]; omega
  obtain ⟨-, -, -, -, -, -, -, -, -, -, e50, e51⟩ := idx0 ⟨(i 0).val / 10000, ht⟩
  have e50' : win0_5.index ⟨(i 0).val / 10000, ht⟩ (0 : Fin 2) = (i 0).val / 10000 := e50
  refine ⟨⟨(i 0).val / 10000, ht⟩, flush0_5 _, ?_⟩
  rw [mem_blk0]
  intro a
  match a with
  | ⟨0, _⟩ => show win0_5.index ⟨(i 0).val / 10000, ht⟩ (0 : Fin 2) * 10000 ≤ (i 0).val ∧ (i 0).val < win0_5.index ⟨(i 0).val / 10000, ht⟩ (0 : Fin 2) * 10000 + 10000; omega
  | ⟨1, _⟩ => show win0_5.index ⟨(i 0).val / 10000, ht⟩ (1 : Fin 2) * 64 ≤ (i 1).val ∧ (i 1).val < win0_5.index ⟨(i 0).val / 10000, ht⟩ (1 : Fin 2) * 64 + 64; omega

/-- THE REGION'S OUTPUT ARRAY after its ten points: the layer's array of the region's entry arrays. -/
theorem value0 (c : Dev nD) :
    (dat0 V c).arrAt 5 cfg0.N = Cert.Spec.hidden (V c main_arg0) (V c main_v42) (V c main_v58) (V c main_arg2) (V c main_arg3) :=
  (dat0 V c).arrAt_eq_of_cover 5 _ (fun t _ => flushed0 V c t) (cover0)

/-! # Region 1: the second dense combine -/

/-- The printed index maps over the ten grid points: every feature window and the output window take block `t` of their
    rows at point `t`; the weights and the bias are one block, the whole array, at every point. -/
theorem idx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = t.val ∧ win1_5.index t (1 : Fin 2) = 0 :=
  (by decide +kernel : ∀ t : Fin grid1.N, _)

theorem lt1 (t : Fin cfg1.N) : t.val < 10 := lt_of_lt_of_eq t.isLt (show cfg1.N = 10 from N_1)

/-- The node that row `p` of point `t`'s block is. -/
def node1 (t : Fin cfg1.N) (p : Fin 10000) : Fin 100000 :=
  ⟨t.val * 10000 + p.val, by have := lt1 t; have := p.isLt; omega⟩

/-- Feature window 0's block at point `t`, read at row `p`, channel `k`: its array at node `t·10000 + p`. -/
theorem feat1_0 (c : Dev nD) (t : Fin cfg1.N) (p : Fin 10000) (k : Fin 64) :
    iblk1 V c 0 t (ix2 p k) = V c main_v59 (ix2 (node1 t p) k) := by
  obtain ⟨e00, e01, e10, e11, e20, e21, -⟩ := idx1 t
  show V c main_v59 (((cfg1.win 0).blk t).view.emb (ix2 p k)) = _
  refine congrArg (V c main_v59) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- Feature window 1's block at point `t`, read at row `p`, channel `k`: its array at node `t·10000 + p`. -/
theorem feat1_1 (c : Dev nD) (t : Fin cfg1.N) (p : Fin 10000) (k : Fin 64) :
    iblk1 V c 1 t (ix2 p k) = V c main_v72 (ix2 (node1 t p) k) := by
  obtain ⟨e00, e01, e10, e11, e20, e21, -⟩ := idx1 t
  show V c main_v72 (((cfg1.win 1).blk t).view.emb (ix2 p k)) = _
  refine congrArg (V c main_v72) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

/-- Feature window 2's block at point `t`, read at row `p`, channel `k`: its array at node `t·10000 + p`. -/
theorem feat1_2 (c : Dev nD) (t : Fin cfg1.N) (p : Fin 10000) (k : Fin 64) :
    iblk1 V c 2 t (ix2 p k) = V c main_v88 (ix2 (node1 t p) k) := by
  obtain ⟨e00, e01, e10, e11, e20, e21, -⟩ := idx1 t
  show V c main_v88 (((cfg1.win 2).blk t).view.emb (ix2 p k)) = _
  refine congrArg (V c main_v88) (funext fun a => Fin.ext ?_)
  match a with
  | ⟨0, _⟩ => show win1_2.index t (0 : Fin 2) * 10000 + 1 * p.val = t.val * 10000 + p.val; omega
  | ⟨1, _⟩ => show win1_2.index t (1 : Fin 2) * 64 + 1 * k.val = k.val; omega

/-- The weights' block is the whole stacked array at every point. -/
theorem weights1 (c : Dev nD) (t : Fin cfg1.N) : iblk1 V c 3 t = V c main_arg4 := by
  obtain ⟨-, -, -, -, -, -, e30, e31, e32, -⟩ := idx1 t
  funext y
  show V c main_arg4 (((cfg1.win 3).blk t).view.emb y) = V c main_arg4 y
  refine congrArg (V c main_arg4) (funext fun a => Fin.ext ?_)
  match a with
  | ⟨0, _⟩ => show win1_3.index t (0 : Fin 3) * 3 + 1 * (y 0).val = (y 0).val; omega
  | ⟨1, _⟩ => show win1_3.index t (1 : Fin 3) * 64 + 1 * (y 1).val = (y 1).val; omega
  | ⟨2, _⟩ => show win1_3.index t (2 : Fin 3) * 16 + 1 * (y 2).val = (y 2).val; omega

/-- So is the bias's. -/
theorem bias1 (c : Dev nD) (t : Fin cfg1.N) : iblk1 V c 4 t = V c main_arg5 := by
  obtain ⟨-, -, -, -, -, -, -, -, -, e4, -⟩ := idx1 t
  funext y
  show V c main_arg5 (((cfg1.win 4).blk t).view.emb y) = V c main_arg5 y
  refine congrArg (V c main_arg5) (funext fun a => Fin.ext ?_)
  match a with
  | ⟨0, _⟩ => show win1_4.index t (0 : Fin 1) * 16 + 1 * (y 0).val = (y 0).val; omega

/-- WHAT POINT `t` WRITES BACK is block `t` of the layer's array of the region's entry arrays: the stored block at row `p`
    is the layer's formula on the blocks' row `p`, which is node `t·10000 + p`'s row of each feature array. -/
theorem flushed1 (c : Dev nD) (t : Fin cfg1.N) :
    (dat1 V c).flushed 5 t = ((cfg1.win 5).blk t).view.read (Elt Ideal)
      (Cert.Spec.out (V c main_v59) (V c main_v72) (V c main_v88) (V c main_arg4) (V c main_arg5)) := by
  show (cfg1.win 5).cut (grid1.coords t) ((dat1 V c).after 5 t) = _
  rw [after1_5]
  funext y
  obtain ⟨p, q, rfl⟩ : ∃ (p : Fin 10000) (q : Fin 16), y = ix2 p q :=
    ⟨⟨(y 0).val, (y 0).isLt⟩, ⟨(y 1).val, (y 1).isLt⟩, funext fun a => by match a with | ⟨0, _⟩ => rfl | ⟨1, _⟩ => rfl⟩
  show out1_5 (iblk1 V c 0 t) (iblk1 V c 1 t) (iblk1 V c 2 t) (iblk1 V c 3 t) (iblk1 V c 4 t) (ix2 p q)
      = Cert.Spec.out (V c main_v59) (V c main_v72) (V c main_v88) (V c main_arg4) (V c main_arg5) (((cfg1.win 5).blk t).view.emb (ix2 p q))
  refine (Cert.KernelIdeal.Block.out_block (iblk1 V c 0 t) (iblk1 V c 1 t) (iblk1 V c 2 t) (iblk1 V c 3 t) (iblk1 V c 4 t) p q).trans ?_
  have he : ((cfg1.win 5).blk t).view.emb (ix2 p q) = ix2 (node1 t p) q := by
    obtain ⟨-, -, -, -, -, -, -, -, -, -, e50, e51⟩ := idx1 t
    refine funext fun a => Fin.ext ?_
    match a with
    | ⟨0, _⟩ => show win1_5.index t (0 : Fin 2) * 10000 + 1 * p.val = t.val * 10000 + p.val; omega
    | ⟨1, _⟩ => show win1_5.index t (1 : Fin 2) * 16 + 1 * q.val = q.val; omega
  rw [he, Cert.Spec.out_ix2]
  exact outAt_congr (weights1 V c t) (bias1 V c t)
    (funext fun k => feat1_0 V c t p k) (funext fun k => feat1_1 V c t p k) (funext fun k => feat1_2 V c t p k) q

/-- An index of the output array is in point `t`'s block iff each coordinate is in the block's range on its axis. -/
theorem mem_blk1 (t : Fin cfg1.N) (i : S100000x16.Idx) :
    i ∈ ((cfg1.win 5).blk t).view.set ↔ ∀ a : Fin 2, win1_5.index t a * S10000x16.size a ≤ (i a).val ∧ (i a).val < win1_5.index t a * S10000x16.size a + S10000x16.size a := by
  show i ∈ ((View.whole main_v89).slice (win1_5.rect t)).set ↔ _
  rw [View.set_slice_whole, Rect.mem_set_unit]
  exact Iff.rfl

/-- The ten blocks of 10000 rows tile the 100000 nodes: node `r` is in the block of point `r / 10000`. -/
theorem cover1 (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have ht : (i 0).val / 10000 < cfg1.N := by rw [show cfg1.N = 10 from N_1]; omega
  obtain ⟨-, -, -, -, -, -, -, -, -, -, e50, e51⟩ := idx1 ⟨(i 0).val / 10000, ht⟩
  have e50' : win1_5.index ⟨(i 0).val / 10000, ht⟩ (0 : Fin 2) = (i 0).val / 10000 := e50
  refine ⟨⟨(i 0).val / 10000, ht⟩, flush1_5 _, ?_⟩
  rw [mem_blk1]
  intro a
  match a with
  | ⟨0, _⟩ => show win1_5.index ⟨(i 0).val / 10000, ht⟩ (0 : Fin 2) * 10000 ≤ (i 0).val ∧ (i 0).val < win1_5.index ⟨(i 0).val / 10000, ht⟩ (0 : Fin 2) * 10000 + 10000; omega
  | ⟨1, _⟩ => show win1_5.index ⟨(i 0).val / 10000, ht⟩ (1 : Fin 2) * 16 ≤ (i 1).val ∧ (i 1).val < win1_5.index ⟨(i 0).val / 10000, ht⟩ (1 : Fin 2) * 16 + 16; omega

/-- THE REGION'S OUTPUT ARRAY after its ten points: the layer's array of the region's entry arrays. -/
theorem value1 (c : Dev nD) :
    (dat1 V c).arrAt 5 cfg1.N = Cert.Spec.out (V c main_v59) (V c main_v72) (V c main_v88) (V c main_arg4) (V c main_arg5) :=
  (dat1 V c).arrAt_eq_of_cover 5 _ (fun t _ => flushed1 V c t) (cover1)

end Cert.KernelIdeal.Region

end
-- ==== Proof.KernelHost.lean ====
/-
  The kernel program's host operations, read back as the reference's own stages.

  Around its two regions the kernel program computes on the host exactly what the reference computes there: the node
  degrees and their inverse square roots, the edge weights, and the graph propagation (gather along the edges' source
  nodes, weight, scatter-add into the target nodes) — applied twice before each region. Each such buffer, read back
  through the stretch of operations that writes it, is literally the term the reference's corresponding stage is defined
  as; nothing of the propagation is opened. The operations come in four stretches, each read on its own from ANY contents
  it starts from, the stages of the earlier stretches entering as those contents: up to the degrees' comparison and
  inverse square roots; the outlined selection between them and zero (three operations); the edge weights and the two
  propagated feature arrays of layer 1; and, between the regions, the two propagated feature arrays of layer 2 as
  functions of what the first region left.
-/
import proofs.«140460_j43542378447164_1_alg».proof.Proof.Gen.KernelIdeal.Launch
import proofs.«140460_j43542378447164_1_alg».proof.Proof.RefReadP
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.ShloMosaic.StableHlo

/-! ## First stretch: the edge list's rows, the degrees, their comparison with zero and inverse square roots -/

variable (X : Valuation τ sig (Elt Ideal))

set_option maxHeartbeats 40000000 in
set_option maxRecDepth 65536 in
/-- The edges' target nodes. -/
theorem s0_v1 :
    after (hostOps0 (F := Ideal)) X (Proc.devRef .tc main_v1) = Cert.ReferenceIdeal.ReadP.val_main_v1 (F := Ideal) (X (Proc.devRef .tc main_arg1)) := by
  after_results_simp
  rfl

set_option maxHeartbeats 40000000 in
set_option maxRecDepth 65536 in
/-- The edges' source nodes. -/
theorem s0_v3 :
    after (hostOps0 (F := Ideal)) X (Proc.devRef .tc main_v3) = Cert.ReferenceIdeal.ReadP.val_main_v3 (F := Ideal) (X (Proc.devRef .tc main_arg1)) := by
  after_results_simp
  rfl

set_option maxHeartbeats 40000000 in
set_option maxRecDepth 65536 in
/-- Which nodes have a positive degree. -/
theorem s0_v9 :
    after (hostOps0 (F := Ideal)) X (Proc.devRef .tc main_v9) = Cert.ReferenceIdeal.ReadP.val_main_v9 (F := Ideal) (X (Proc.devRef .tc main_arg1)) := by
  after_results_simp
  rfl

set_option maxHeartbeats 40000000 in
set_option maxRecDepth 65536 in
/-- The inverse square roots of the degrees clamped below at one. -/
theorem s0_v12 :
    after (hostOps0 (F := Ideal)) X (Proc.devRef .tc main_v12) = Cert.ReferenceIdeal.ReadP.val_main_v12 (F := Ideal) (X (Proc.devRef .tc main_arg1)) := by
  after_results_simp
  rfl

set_option maxHeartbeats 40000000 in
set_option maxRecDepth 65536 in
/-- The constant zero. -/
theorem s0_cst3 :
    after (hostOps0 (F := Ideal)) X (Proc.devRef .tc main_cst_3) = Cert.ReferenceIdeal.ReadP.val_main_cst_3 (F := Ideal) := by
  after_results_simp
  rfl

set_option maxHeartbeats 40000000 in
set_option maxRecDepth 65536 in
/-- No operation of the first stretch writes `main_arg0`. -/
theorem s0_arg0 : after (hostOps0 (F := Ideal)) X (Proc.devRef .tc main_arg0) = X (Proc.devRef .tc main_arg0) := by
  after_results_simp

set_option maxHeartbeats 40000000 in
set_option maxRecDepth 65536 in
/-- No operation of the first stretch writes `main_arg2`. -/
theorem s0_arg2 : after (hostOps0 (F := Ideal)) X (Proc.devRef .tc main_arg2) = X (Proc.devRef .tc main_arg2) := by
  after_results_simp

set_option maxHeartbeats 40000000 in
set_option maxRecDepth 65536 in
/-- No operation of the first stretch writes `main_arg3`. -/
theorem s0_arg3 : after (hostOps0 (F := Ideal)) X (Proc.devRef .tc main_arg3) = X (Proc.devRef .tc main_arg3) := by
  after_results_simp

set_option maxHeartbeats 40000000 in
set_option maxRecDepth 65536 in
/-- No operation of the first stretch writes `main_arg4`. -/
theorem s0_arg4 : after (hostOps0 (F := Ideal)) X (Proc.devRef .tc main_arg4) = X (Proc.devRef .tc main_arg4) := by
  after_results_simp

set_option maxHeartbeats 40000000 in
set_option maxRecDepth 65536 in
/-- No operation of the first stretch writes `main_arg5`. -/
theorem s0_arg5 : after (hostOps0 (F := Ideal)) X (Proc.devRef .tc main_arg5) = X (Proc.devRef .tc main_arg5) := by
  after_results_simp

/-! ## Second stretch: the outlined selection -/

variable (Y : Valuation τ sig (Elt Ideal))

/-- The outlined selection as one function of its three operands: where the condition holds the first array, elsewhere the
    scalar, converted and spread over the nodes. -/
def whereTerm (c : (⟨S100000, .i1⟩ : BufTy).Contents (Elt Ideal)) (a : (⟨S100000, .f32⟩ : BufTy).Contents (Elt Ideal))
    (z : (⟨S_, .f32⟩ : BufTy).Contents (Elt Ideal)) : (⟨S100000, .f32⟩ : BufTy).Contents (Elt Ideal) :=
  select c a (broadcastInDim S100000 ![] bcast_S_S100000 (id z))

set_option maxHeartbeats 40000000 in
set_option maxRecDepth 65536 in
/-- The selection's three operations, from any contents: the function above of what the contents hold. -/
theorem s1_where (c : (⟨S100000, .i1⟩ : BufTy).Contents (Elt Ideal)) (a : (⟨S100000, .f32⟩ : BufTy).Contents (Elt Ideal))
    (z : (⟨S_, .f32⟩ : BufTy).Contents (Elt Ideal))
    (h9 : Y (Proc.devRef .tc main_v9) = c) (h12 : Y (Proc.devRef .tc main_v12) = a) (hc : Y (Proc.devRef .tc main_cst_3) = z) :
    after (hostOps0_1 (F := Ideal)) Y (Proc.devRef .tc main_v13) = whereTerm c a z := by
  after_results_simp
  rw [h9, h12, hc]
  rfl

/-- The inverse square roots where the degree is positive, zero elsewhere. -/
theorem s1_v13 (x1 : (⟨S2x1600000, .i32⟩ : BufTy).Contents (Elt Ideal))
    (h9 : Y (Proc.devRef .tc main_v9) = Cert.ReferenceIdeal.ReadP.val_main_v9 (F := Ideal) x1) (h12 : Y (Proc.devRef .tc main_v12) = Cert.ReferenceIdeal.ReadP.val_main_v12 (F := Ideal) x1) (hc : Y (Proc.devRef .tc main_cst_3) = Cert.ReferenceIdeal.ReadP.val_main_cst_3 (F := Ideal)) :
    after (hostOps0_1 (F := Ideal)) Y (Proc.devRef .tc main_v13) = Cert.ReferenceIdeal.ReadP.val_main_v13 (F := Ideal) x1 :=
  (s1_where Y _ _ _ h9 h12 hc).trans rfl

set_option maxHeartbeats 40000000 in
set_option maxRecDepth 65536 in
/-- No operation of the second stretch writes `main_v1`. -/
theorem s1_v1 : after (hostOps0_1 (F := Ideal)) Y (Proc.devRef .tc main_v1) = Y (Proc.devRef .tc main_v1) := by
  after_results_simp

set_option maxHeartbeats 40000000 in
set_option maxRecDepth 65536 in
/-- No operation of the second stretch writes `main_v3`. -/
theorem s1_v3 : after (hostOps0_1 (F := Ideal)) Y (Proc.devRef .tc main_v3) = Y (Proc.devRef .tc main_v3) := by
  after_results_simp

set_option maxHeartbeats 40000000 in
set_option maxRecDepth 65536 in
/-- No operation of the second stretch writes `main_arg0`. -/
theorem s1_arg0 : after (hostOps0_1 (F := Ideal)) Y (Proc.devRef .tc main_arg0) = Y (Proc.devRef .tc main_arg0) := by
  after_results_simp

set_option maxHeartbeats 40000000 in
set_option maxRecDepth 65536 in
/-- No operation of the second stretch writes `main_arg2`. -/
theorem s1_arg2 : after (hostOps0_1 (F := Ideal)) Y (Proc.devRef .tc main_arg2) = Y (Proc.devRef .tc main_arg2) := by
  after_results_simp

set_option maxHeartbeats 40000000 in
set_option maxRecDepth 65536 in
/-- No operation of the second stretch writes `main_arg3`. -/
theorem s1_arg3 : after (hostOps0_1 (F := Ideal)) Y (Proc.devRef .tc main_arg3) = Y (Proc.devRef .tc main_arg3) := by
  after_results_simp

set_option maxHeartbeats 40000000 in
set_option maxRecDepth 65536 in
/-- No operation of the second stretch writes `main_arg4`. -/
theorem s1_arg4 : after (hostOps0_1 (F := Ideal)) Y (Proc.devRef .tc main_arg4) = Y (Proc.devRef .tc main_arg4) := by
  after_results_simp

set_option maxHeartbeats 40000000 in
set_option maxRecDepth 65536 in
/-- No operation of the second stretch writes `main_arg5`. -/
theorem s1_arg5 : after (hostOps0_1 (F := Ideal)) Y (Proc.devRef .tc main_arg5) = Y (Proc.devRef .tc main_arg5) := by
  after_results_simp

/-! ## Third stretch: the edge weights and the two propagated feature arrays of layer 1 -/

variable (Z : Valuation τ sig (Elt Ideal))

set_option maxHeartbeats 40000000 in
set_option maxRecDepth 65536 in
/-- The edge weights. -/
theorem s2_v29 (x1 : (⟨S2x1600000, .i32⟩ : BufTy).Contents (Elt Ideal))
    (h13 : Z (Proc.devRef .tc main_v13) = Cert.ReferenceIdeal.ReadP.val_main_v13 (F := Ideal) x1) (h1 : Z (Proc.devRef .tc main_v1) = Cert.ReferenceIdeal.ReadP.val_main_v1 (F := Ideal) x1) (h3 : Z (Proc.devRef .tc main_v3) = Cert.ReferenceIdeal.ReadP.val_main_v3 (F := Ideal) x1) :
    after (hostOps0_2 (F := Ideal)) Z (Proc.devRef .tc main_v29) = Cert.ReferenceIdeal.ReadP.val_main_v29 (F := Ideal) x1 := by
  after_results_simp
  simp only [h13, h1, h3]
  rfl

set_option maxHeartbeats 40000000 in
set_option maxRecDepth 65536 in
/-- The first propagation of the input features. -/
theorem s2_v42 (x0 : (⟨S100000x64, .f32⟩ : BufTy).Contents (Elt Ideal)) (x1 : (⟨S2x1600000, .i32⟩ : BufTy).Contents (Elt Ideal))
    (h0 : Z (Proc.devRef .tc main_arg0) = x0) (h13 : Z (Proc.devRef .tc main_v13) = Cert.ReferenceIdeal.ReadP.val_main_v13 (F := Ideal) x1) (h1 : Z (Proc.devRef .tc main_v1) = Cert.ReferenceIdeal.ReadP.val_main_v1 (F := Ideal) x1) (h3 : Z (Proc.devRef .tc main_v3) = Cert.ReferenceIdeal.ReadP.val_main_v3 (F := Ideal) x1) :
    after (hostOps0_2 (F := Ideal)) Z (Proc.devRef .tc main_v42) = Cert.ReferenceIdeal.ReadP.val_main_v45 (F := Ideal) x0 x1 := by
  after_results_simp
  simp only [h0, h13, h1, h3]
  rfl

set_option maxHeartbeats 40000000 in
set_option maxRecDepth 65536 in
/-- Twice the second propagation, less the input features. -/
theorem s2_v58 (x0 : (⟨S100000x64, .f32⟩ : BufTy).Contents (Elt Ideal)) (x1 : (⟨S2x1600000, .i32⟩ : BufTy).Contents (Elt Ideal))
    (h0 : Z (Proc.devRef .tc main_arg0) = x0) (h13 : Z (Proc.devRef .tc main_v13) = Cert.ReferenceIdeal.ReadP.val_main_v13 (F := Ideal) x1) (h1 : Z (Proc.devRef .tc main_v1) = Cert.ReferenceIdeal.ReadP.val_main_v1 (F := Ideal) x1) (h3 : Z (Proc.devRef .tc main_v3) = Cert.ReferenceIdeal.ReadP.val_main_v3 (F := Ideal) x1) :
    after (hostOps0_2 (F := Ideal)) Z (Proc.devRef .tc main_v58) = Cert.ReferenceIdeal.ReadP.val_main_v65 (F := Ideal) x0 x1 := by
  after_results_simp
  simp only [h0, h13, h1, h3]
  rfl

set_option maxHeartbeats 40000000 in
set_option maxRecDepth 65536 in
/-- No operation of the third stretch writes `main_v1`. -/
theorem s2_v1 : after (hostOps0_2 (F := Ideal)) Z (Proc.devRef .tc main_v1) = Z (Proc.devRef .tc main_v1) := by
  after_results_simp

set_option maxHeartbeats 40000000 in
set_option maxRecDepth 65536 in
/-- No operation of the third stretch writes `main_v3`. -/
theorem s2_v3 : after (hostOps0_2 (F := Ideal)) Z (Proc.devRef .tc main_v3) = Z (Proc.devRef .tc main_v3) := by
  after_results_simp

set_option maxHeartbeats 40000000 in
set_option maxRecDepth 65536 in
/-- No operation of the third stretch writes `main_arg0`. -/
theorem s2_arg0 : after (hostOps0_2 (F := Ideal)) Z (Proc.devRef .tc main_arg0) = Z (Proc.devRef .tc main_arg0) := by
  after_results_simp

set_option maxHeartbeats 40000000 in
set_option maxRecDepth 65536 in
/-- No operation of the third stretch writes `main_arg2`. -/
theorem s2_arg2 : after (hostOps0_2 (F := Ideal)) Z (Proc.devRef .tc main_arg2) = Z (Proc.devRef .tc main_arg2) := by
  after_results_simp

set_option maxHeartbeats 40000000 in
set_option maxRecDepth 65536 in
/-- No operation of the third stretch writes `main_arg3`. -/
theorem s2_arg3 : after (hostOps0_2 (F := Ideal)) Z (Proc.devRef .tc main_arg3) = Z (Proc.devRef .tc main_arg3) := by
  after_results_simp

set_option maxHeartbeats 40000000 in
set_option maxRecDepth 65536 in
/-- No operation of the third stretch writes `main_arg4`. -/
theorem s2_arg4 : after (hostOps0_2 (F := Ideal)) Z (Proc.devRef .tc main_arg4) = Z (Proc.devRef .tc main_arg4) := by
  after_results_simp

set_option maxHeartbeats 40000000 in
set_option maxRecDepth 65536 in
/-- No operation of the third stretch writes `main_arg5`. -/
theorem s2_arg5 : after (hostOps0_2 (F := Ideal)) Z (Proc.devRef .tc main_arg5) = Z (Proc.devRef .tc main_arg5) := by
  after_results_simp

/-! ## Between the regions -/

variable (U : Valuation τ sig (Elt Ideal))

set_option maxHeartbeats 40000000 in
set_option maxRecDepth 65536 in
/-- The propagation of the hidden features: the reference's stage, once the first region's output is the reference's hidden features and the edge data are the reference's. -/
theorem between_v72 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal))
    (h59 : U (Proc.devRef .tc main_v59) = Cert.ReferenceIdeal.ReadP.val_main_v73 (F := Ideal) x0 x1 x2 x3) (h1 : U (Proc.devRef .tc main_v1) = Cert.ReferenceIdeal.ReadP.val_main_v1 (F := Ideal) x1) (h3 : U (Proc.devRef .tc main_v3) = Cert.ReferenceIdeal.ReadP.val_main_v3 (F := Ideal) x1) (h29 : U (Proc.devRef .tc main_v29) = Cert.ReferenceIdeal.ReadP.val_main_v29 (F := Ideal) x1) :
    after (hostOps1 (F := Ideal)) U (Proc.devRef .tc main_v72) = Cert.ReferenceIdeal.ReadP.val_main_v89 (F := Ideal) x0 x1 x2 x3 := by
  after_results_simp
  simp only [h59, h1, h3, h29]
  rfl

set_option maxHeartbeats 40000000 in
set_option maxRecDepth 65536 in
/-- Twice the second propagation of the hidden features, less the hidden features. -/
theorem between_v88 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal))
    (h59 : U (Proc.devRef .tc main_v59) = Cert.ReferenceIdeal.ReadP.val_main_v73 (F := Ideal) x0 x1 x2 x3) (h1 : U (Proc.devRef .tc main_v1) = Cert.ReferenceIdeal.ReadP.val_main_v1 (F := Ideal) x1) (h3 : U (Proc.devRef .tc main_v3) = Cert.ReferenceIdeal.ReadP.val_main_v3 (F := Ideal) x1) (h29 : U (Proc.devRef .tc main_v29) = Cert.ReferenceIdeal.ReadP.val_main_v29 (F := Ideal) x1) :
    after (hostOps1 (F := Ideal)) U (Proc.devRef .tc main_v88) = Cert.ReferenceIdeal.ReadP.val_main_v109 (F := Ideal) x0 x1 x2 x3 := by
  after_results_simp
  simp only [h59, h1, h3, h29]
  rfl

set_option maxHeartbeats 40000000 in
set_option maxRecDepth 65536 in
/-- No operation between the regions writes `main_v59`. -/
theorem between_v59 : after (hostOps1 (F := Ideal)) U (Proc.devRef .tc main_v59) = U (Proc.devRef .tc main_v59) := by
  after_results_simp

set_option maxHeartbeats 40000000 in
set_option maxRecDepth 65536 in
/-- No operation between the regions writes `main_arg4`. -/
theorem between_arg4 : after (hostOps1 (F := Ideal)) U (Proc.devRef .tc main_arg4) = U (Proc.devRef .tc main_arg4) := by
  after_results_simp

set_option maxHeartbeats 40000000 in
set_option maxRecDepth 65536 in
/-- No operation between the regions writes `main_arg5`. -/
theorem between_arg5 : after (hostOps1 (F := Ideal)) U (Proc.devRef .tc main_arg5) = U (Proc.devRef .tc main_arg5) := by
  after_results_simp

end Cert.KernelIdeal.Host

end
-- ==== Proof.RefLayers.lean ====
/-
  The reference's two layers, read node by node.

  The reference computes each Chebyshev layer with whole-array operations: three matrix products against the three
  slices of the weight array, two additions, a broadcast bias, and then either a clamp at zero (the first layer) or the
  logarithm of the softmax along the channels (the second). Read at one node `r` and one channel `j`, every one of these
  operations looks only at row `r` of the three feature arrays, so the layer is the row-wise arithmetic of the
  specification: the dense combine of the node's three rows, clamped, or pushed through the row's log-softmax. The
  propagated feature arrays stay opaque throughout: nothing here looks inside the propagation along the graph.
-/
import proofs.«140460_j43542378447164_1_alg».proof.Proof.RefReadP
import proofs.«140460_j43542378447164_1_alg».proof.Proof.Spec
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.ReadP Idealize.ShloMosaic Idealize.ShloMosaic.ValueIdx

/-! ## The weight slices -/

/-- Slice 0 of the first layer's weights, laid out as a 64×64 matrix, is the weight array at (0, k, j). -/
theorem w1_slice0 (x2 : (⟨S3x64x64, .f32⟩ : BufTy).Contents (Elt Ideal)) (k j : Fin 64) :
    val_main_v31 (F := Ideal) x2 (ix2 k j) = x2 (ix3 (0 : Fin 3) k j) := by
  have hk : k.val < 64 := k.isLt
  have hj : j.val < 64 := j.isLt
  rw [val_main_v31_apply, val_main_v30_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

/-- Slice 1 of the first layer's weights, laid out as a 64×64 matrix, is the weight array at (1, k, j). -/
theorem w1_slice1 (x2 : (⟨S3x64x64, .f32⟩ : BufTy).Contents (Elt Ideal)) (k j : Fin 64) :
    val_main_v47 (F := Ideal) x2 (ix2 k j) = x2 (ix3 (1 : Fin 3) k j) := by
  have hk : k.val < 64 := k.isLt
  have hj : j.val < 64 := j.isLt
  rw [val_main_v47_apply, val_main_v46_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

/-- Slice 2 of the first layer's weights, laid out as a 64×64 matrix, is the weight array at (2, k, j). -/
theorem w1_slice2 (x2 : (⟨S3x64x64, .f32⟩ : BufTy).Contents (Elt Ideal)) (k j : Fin 64) :
    val_main_v67 (F := Ideal) x2 (ix2 k j) = x2 (ix3 (2 : Fin 3) k j) := by
  have hk : k.val < 64 := k.isLt
  have hj : j.val < 64 := j.isLt
  rw [val_main_v67_apply, val_main_v66_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

/-- Slice 0 of the second layer's weights, laid out as a 64×16 matrix, is the weight array at (0, k, j). -/
theorem w2_slice0 (x4 : (⟨S3x64x16, .f32⟩ : BufTy).Contents (Elt Ideal)) (k : Fin 64) (j : Fin 16) :
    val_main_v75 (F := Ideal) x4 (ix2 k j) = x4 (ix3 (0 : Fin 3) k j) := by
  have hk : k.val < 64 := k.isLt
  have hj : j.val < 16 := j.isLt
  rw [val_main_v75_apply, val_main_v74_apply]
  refine congrArg x4 (funext fun a => Fin.ext ?_)
  match a with
  | ⟨0, _⟩ => rfl
  | ⟨1, _⟩ => show (k.val * 16 + j.val) / 16 % 64 = k.val; omega
  | ⟨2, _⟩ => show (k.val * 16 + j.val) % 16 = j.val; omega

/-- Slice 1 of the second layer's weights, laid out as a 64×16 matrix, is the weight array at (1, k, j). -/
theorem w2_slice1 (x4 : (⟨S3x64x16, .f32⟩ : BufTy).Contents (Elt Ideal)) (k : Fin 64) (j : Fin 16) :
    val_main_v91 (F := Ideal) x4 (ix2 k j) = x4 (ix3 (1 : Fin 3) k j) := by
  have hk : k.val < 64 := k.isLt
  have hj : j.val < 16 := j.isLt
  rw [val_main_v91_apply, val_main_v90_apply]
  refine congrArg x4 (funext fun a => Fin.ext ?_)
  match a with
  | ⟨0, _⟩ => rfl
  | ⟨1, _⟩ => show (k.val * 16 + j.val) / 16 % 64 = k.val; omega
  | ⟨2, _⟩ => show (k.val * 16 + j.val) % 16 = j.val; omega

/-- Slice 2 of the second layer's weights, laid out as a 64×16 matrix, is the weight array at (2, k, j). -/
theorem w2_slice2 (x4 : (⟨S3x64x16, .f32⟩ : BufTy).Contents (Elt Ideal)) (k : Fin 64) (j : Fin 16) :
    val_main_v111 (F := Ideal) x4 (ix2 k j) = x4 (ix3 (2 : Fin 3) k j) := by
  have hk : k.val < 64 := k.isLt
  have hj : j.val < 16 := j.isLt
  rw [val_main_v111_apply, val_main_v110_apply]
  refine congrArg x4 (funext fun a => Fin.ext ?_)
  match a with
  | ⟨0, _⟩ => rfl
  | ⟨1, _⟩ => show (k.val * 16 + j.val) / 16 % 64 = k.val; omega
  | ⟨2, _⟩ => show (k.val * 16 + j.val) % 16 = j.val; omega

/-! ## The first layer -/

/-- The product of the features with the first weight slice, at node `r` and channel `j`: row `r` of the features against column `j` of the slice. -/
theorem layer1_term0 (x0 : (⟨S100000x64, .f32⟩ : BufTy).Contents (Elt Ideal)) (x2 : (⟨S3x64x64, .f32⟩ : BufTy).Contents (Elt Ideal)) (r : Fin 100000) (j : Fin 64) :
    val_main_v32 (F := Ideal) x0 x2 (ix2 r j) = ∑ k : Fin 64, x0 (ix2 r k) * x2 (ix3 (0 : Fin 3) k j) := by
  rw [val_main_v32_apply]
  refine Finset.sum_congr rfl fun k _ => ?_
  have el : lidx_main_v32 (ix2 r j) k = ix2 r k := funext fun a => Fin.ext (by match a with | ⟨0, _⟩ => rfl | ⟨1, _⟩ => rfl)
  have er : ridx_main_v32 (ix2 r j) k = ix2 k j := funext fun a => Fin.ext (by match a with | ⟨0, _⟩ => rfl | ⟨1, _⟩ => rfl)
  rw [el, er, w1_slice0]

/-- The product of the propagated features with the second weight slice, at node `r` and channel `j`. -/
theorem layer1_term1 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (r : Fin 100000) (j : Fin 64) :
    val_main_v48 (F := Ideal) x0 x1 x2 (ix2 r j) = ∑ k : Fin 64, (val_main_v45 (F := Ideal) x0 x1) (ix2 r k) * x2 (ix3 (1 : Fin 3) k j) := by
  rw [val_main_v48_apply]
  refine Finset.sum_congr rfl fun k _ => ?_
  have el : lidx_main_v48 (ix2 r j) k = ix2 r k := funext fun a => Fin.ext (by match a with | ⟨0, _⟩ => rfl | ⟨1, _⟩ => rfl)
  have er : ridx_main_v48 (ix2 r j) k = ix2 k j := funext fun a => Fin.ext (by match a with | ⟨0, _⟩ => rfl | ⟨1, _⟩ => rfl)
  rw [el, er, w1_slice1]

/-- The product of the second Chebyshev term with the third weight slice, at node `r` and channel `j`. -/
theorem layer1_term2 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (r : Fin 100000) (j : Fin 64) :
    val_main_v68 (F := Ideal) x0 x1 x2 (ix2 r j) = ∑ k : Fin 64, (val_main_v65 (F := Ideal) x0 x1) (ix2 r k) * x2 (ix3 (2 : Fin 3) k j) := by
  rw [val_main_v68_apply]
  refine Finset.sum_congr rfl fun k _ => ?_
  have el : lidx_main_v68 (ix2 r j) k = ix2 r k := funext fun a => Fin.ext (by match a with | ⟨0, _⟩ => rfl | ⟨1, _⟩ => rfl)
  have er : ridx_main_v68 (ix2 r j) k = ix2 k j := funext fun a => Fin.ext (by match a with | ⟨0, _⟩ => rfl | ⟨1, _⟩ => rfl)
  rw [el, er, w1_slice2]

/-- The first layer's bias, broadcast over the nodes, is the bias at the channel. -/
theorem bias1_read (x3 : (⟨S64, .f32⟩ : BufTy).Contents (Elt Ideal)) (r : Fin 100000) (j : Fin 64) :
    val_main_v71 (F := Ideal) x3 (ix2 r j) = x3 (ix1 j) := by
  rw [val_main_v71_apply, val_main_v70_apply]
  exact congrArg x3 (funext fun a => Fin.ext (by match a with | ⟨0, _⟩ => rfl))

/-- The clamp's lower bound is the zero word at every entry. -/
theorem relu_zero_read (i : S100000x64.Idx) :
    val_main_call1_v0 (F := Ideal) i = Ideal.ofBits .f32 0x00000000#32 :=
  (val_main_call1_v0_apply (F := Ideal) i).trans (val_main_call1_cst_apply (F := Ideal) _)

/-- The reference's hidden features are the specification's first layer of the features, their propagation and the
    second Chebyshev term. -/
theorem hidden_eq (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) :
    val_main_v73 (F := Ideal) x0 x1 x2 x3 = Cert.Spec.hidden x0 (val_main_v45 (F := Ideal) x0 x1) (val_main_v65 (F := Ideal) x0 x1) x2 x3 := by
  funext i
  obtain ⟨r, j, rfl⟩ : ∃ (r : Fin 100000) (j : Fin 64), i = ix2 r j :=
    ⟨⟨(i 0).val, (i 0).isLt⟩, ⟨(i 1).val, (i 1).isLt⟩, funext fun a => by match a with | ⟨0, _⟩ => rfl | ⟨1, _⟩ => rfl⟩
  rw [Cert.Spec.hidden_ix2, val_main_v73_apply, val_main_v72_apply, val_main_v69_apply, val_main_v49_apply,
    layer1_term0, layer1_term1, layer1_term2, bias1_read, relu_zero_read]
  generalize val_main_v45 (F := Ideal) x0 x1 = T1
  generalize val_main_v65 (F := Ideal) x0 x1 = T2
  rfl

/-! ## The second layer before the softmax -/

/-- The product of the hidden features with the first weight slice of the second layer, at node `r` and channel `j`. -/
theorem layer2_term0 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (r : Fin 100000) (j : Fin 16) :
    val_main_v76 (F := Ideal) x0 x1 x2 x3 x4 (ix2 r j) = ∑ k : Fin 64, (val_main_v73 (F := Ideal) x0 x1 x2 x3) (ix2 r k) * x4 (ix3 (0 : Fin 3) k j) := by
  rw [val_main_v76_apply]
  refine Finset.sum_congr rfl fun k _ => ?_
  have el : lidx_main_v76 (ix2 r j) k = ix2 r k := funext fun a => Fin.ext (by match a with | ⟨0, _⟩ => rfl | ⟨1, _⟩ => rfl)
  have er : ridx_main_v76 (ix2 r j) k = ix2 k j := funext fun a => Fin.ext (by match a with | ⟨0, _⟩ => rfl | ⟨1, _⟩ => rfl)
  rw [el, er, w2_slice0]

/-- The product of the propagated hidden features with the second weight slice, at node `r` and channel `j`. -/
theorem layer2_term1 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (r : Fin 100000) (j : Fin 16) :
    val_main_v92 (F := Ideal) x0 x1 x2 x3 x4 (ix2 r j) = ∑ k : Fin 64, (val_main_v89 (F := Ideal) x0 x1 x2 x3) (ix2 r k) * x4 (ix3 (1 : Fin 3) k j) := by
  rw [val_main_v92_apply]
  refine Finset.sum_congr rfl fun k _ => ?_
  have el : lidx_main_v92 (ix2 r j) k = ix2 r k := funext fun a => Fin.ext (by match a with | ⟨0, _⟩ => rfl | ⟨1, _⟩ => rfl)
  have er : ridx_main_v92 (ix2 r j) k = ix2 k j := funext fun a => Fin.ext (by match a with | ⟨0, _⟩ => rfl | ⟨1, _⟩ => rfl)
  rw [el, er, w2_slice1]

/-- The product of the hidden features' second Chebyshev term with the third weight slice, at node `r` and channel `j`. -/
theorem layer2_term2 (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (r : Fin 100000) (j : Fin 16) :
    val_main_v112 (F := Ideal) x0 x1 x2 x3 x4 (ix2 r j) = ∑ k : Fin 64, (val_main_v109 (F := Ideal) x0 x1 x2 x3) (ix2 r k) * x4 (ix3 (2 : Fin 3) k j) := by
  rw [val_main_v112_apply]
  refine Finset.sum_congr rfl fun k _ => ?_
  have el : lidx_main_v112 (ix2 r j) k = ix2 r k := funext fun a => Fin.ext (by match a with | ⟨0, _⟩ => rfl | ⟨1, _⟩ => rfl)
  have er : ridx_main_v112 (ix2 r j) k = ix2 k j := funext fun a => Fin.ext (by match a with | ⟨0, _⟩ => rfl | ⟨1, _⟩ => rfl)
  rw [el, er, w2_slice2]

/-- The second layer's bias, broadcast over the nodes, is the bias at the channel. -/
theorem bias2_read (x5 : (⟨S16, .f32⟩ : BufTy).Contents (Elt Ideal)) (r : Fin 100000) (j : Fin 16) :
    val_main_v115 (F := Ideal) x5 (ix2 r j) = x5 (ix1 j) := by
  rw [val_main_v115_apply, val_main_v114_apply]
  exact congrArg x5 (funext fun a => Fin.ext (by match a with | ⟨0, _⟩ => rfl))

/-- The second layer before the softmax, at node `r`: the dense combine of row `r` of the hidden features, of their
    propagation and of their second Chebyshev term. -/
theorem logits_read (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal)) (r : Fin 100000) (j : Fin 16) :
    val_main_v116 (F := Ideal) x0 x1 x2 x3 x4 x5 (ix2 r j)
      = Cert.Spec.combineRow (Cert.Spec.rowOf (val_main_v73 (F := Ideal) x0 x1 x2 x3) r) (Cert.Spec.rowOf (val_main_v89 (F := Ideal) x0 x1 x2 x3) r)
          (Cert.Spec.rowOf (val_main_v109 (F := Ideal) x0 x1 x2 x3) r) x4 x5 j := by
  rw [val_main_v116_apply, val_main_v113_apply, val_main_v93_apply, layer2_term0, layer2_term1, layer2_term2, bias2_read]
  generalize val_main_v73 (F := Ideal) x0 x1 x2 x3 = H
  generalize val_main_v89 (F := Ideal) x0 x1 x2 x3 = P1
  generalize val_main_v109 (F := Ideal) x0 x1 x2 x3 = P2
  rfl

/-! ## The logarithm of the softmax along the channels -/

/-- A row maximum: a reduction with a maximum body along the second axis of a 100000×16 array is, at row `r`, the fold
    of `max` from the initial element over the sixteen entries of the row. -/
theorem rowMax_read (Z : (⟨S100000x16, .f32⟩ : BufTy).Contents (Elt Ideal)) (init : (⟨S_, .f32⟩ : BufTy).Contents (Elt Ideal))
    (h' : S100000x16.ReducesTo [1] S100000) (hu : 0 < S_.numel) (r : Fin 100000) :
    Host.reduce (FloatOps.maximumf (F := Ideal) (φ := .f32)) Z init h' hu (ix1 r)
      = Finset.univ.fold max (init (Shape.Idx.first hu)) (fun k : Fin 16 => Z (ix2 r k)) := by
  have h : S100000x16.Reduces [1] S100000 := by decide
  rw [Host.reduce_eq_fold_single (FloatOps.maximumf (F := Ideal) (φ := .f32)) Z init h' h hu (ix1 r)]
  show Finset.univ.fold max (init (Shape.Idx.first hu)) (Z ∘ h.lift (ix1 r)) = _
  refine congrArg (fun f => Finset.univ.fold max (init (Shape.Idx.first hu)) f) ?_
  funext k
  exact congrArg Z (funext fun a => Fin.ext (by match a with | ⟨0, _⟩ => rfl | ⟨1, _⟩ => rfl))

/-- The maximum the softmax subtracts, at node `r`: the fold of `max` from −∞ over the node's sixteen values. The
    reference takes one more maximum with −∞ afterwards, which changes nothing. -/
theorem max_read (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal)) (r : Fin 100000) :
    val_main_call2_v2 (F := Ideal) x0 x1 x2 x3 x4 x5 (ix1 r)
      = Finset.univ.fold max (Ideal.ofBits .f32 0xFF800000#32) (fun k : Fin 16 => val_main_v116 (F := Ideal) x0 x1 x2 x3 x4 x5 (ix2 r k)) := by
  rw [val_main_call2_v2_apply, val_main_call2_v1_apply, val_main_call2_cst_0_apply]
  unfold val_main_call2_v0
  generalize val_main_v116 (F := Ideal) x0 x1 x2 x3 x4 x5 = Z
  rw [rowMax_read Z _ _ _ r, val_main_call2_cst_apply]
  exact Cert.Spec.max_start_fold _ _

/-- The values less their row's maximum. -/
theorem shifted_read (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal)) (r : Fin 100000) (j : Fin 16) :
    val_main_call2_v5 (F := Ideal) x0 x1 x2 x3 x4 x5 (ix2 r j)
      = val_main_v116 (F := Ideal) x0 x1 x2 x3 x4 x5 (ix2 r j)
        - Finset.univ.fold max (Ideal.ofBits .f32 0xFF800000#32) (fun k : Fin 16 => val_main_v116 (F := Ideal) x0 x1 x2 x3 x4 x5 (ix2 r k)) := by
  have e : idx_main_call2_v3 (idx_main_call2_v4 (ix2 r j)) = ix1 r := funext fun a => Fin.ext (by match a with | ⟨0, _⟩ => rfl)
  rw [val_main_call2_v5_apply, val_main_call2_v4_apply, val_main_call2_v3_apply, e, max_read]
  rfl

/-- The sum, from zero, of the exponentials of a row's shifted values. -/
theorem sumExp_read (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal)) (r : Fin 100000) :
    val_main_call2_v7 (F := Ideal) x0 x1 x2 x3 x4 x5 (ix1 r)
      = ∑ k : Fin 16, Ideal.exp (val_main_v116 (F := Ideal) x0 x1 x2 x3 x4 x5 (ix2 r k)
          - Finset.univ.fold max (Ideal.ofBits .f32 0xFF800000#32) (fun k' : Fin 16 => val_main_v116 (F := Ideal) x0 x1 x2 x3 x4 x5 (ix2 r k'))) := by
  rw [val_main_call2_v7_apply, val_main_call2_cst_1_apply, Ideal.ofBits_def, Ideal.ofBits_zero_f32, zero_add]
  refine Finset.sum_congr rfl fun k _ => ?_
  have e : idx_main_call2_v7 (ix1 r) k = ix2 r k := funext fun a => Fin.ext (by match a with | ⟨0, _⟩ => rfl | ⟨1, _⟩ => rfl)
  rw [e, val_main_call2_v6_apply, shifted_read]
  rfl

/-- The reference's result at node `r` is the logarithm of the softmax of the node's sixteen values before the softmax. -/
theorem logSoftmax_read (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal)) (r : Fin 100000) (j : Fin 16) :
    val_main_v117 (F := Ideal) x0 x1 x2 x3 x4 x5 (ix2 r j)
      = Cert.Spec.logSoftmaxRow (fun k : Fin 16 => val_main_v116 (F := Ideal) x0 x1 x2 x3 x4 x5 (ix2 r k)) j := by
  have e : idx_main_call2_v8 (idx_main_call2_v10 (ix2 r j)) = ix1 r := funext fun a => Fin.ext (by match a with | ⟨0, _⟩ => rfl)
  rw [val_main_v117_apply, val_main_call2_v10_apply, val_main_call2_v9_apply, val_main_call2_v8_apply, e, sumExp_read,
    shifted_read]
  rfl

/-- The reference's result is the specification's second layer of the hidden features, their propagation and their
    second Chebyshev term. -/
theorem out_eq (x0 : (⟨S100000x64, .f32⟩ : BufTy).Contents (Elt Ideal)) (x1 : (⟨S2x1600000, .i32⟩ : BufTy).Contents (Elt Ideal)) (x2 : (⟨S3x64x64, .f32⟩ : BufTy).Contents (Elt Ideal)) (x3 : (⟨S64, .f32⟩ : BufTy).Contents (Elt Ideal)) (x4 : (⟨S3x64x16, .f32⟩ : BufTy).Contents (Elt Ideal)) (x5 : (⟨S16, .f32⟩ : BufTy).Contents (Elt Ideal)) :
    val_main_v117 (F := Ideal) x0 x1 x2 x3 x4 x5
      = Cert.Spec.out (val_main_v73 (F := Ideal) x0 x1 x2 x3) (val_main_v89 (F := Ideal) x0 x1 x2 x3) (val_main_v109 (F := Ideal) x0 x1 x2 x3) x4 x5 := by
  funext i
  obtain ⟨r, j, rfl⟩ : ∃ (r : Fin 100000) (j : Fin 16), i = ix2 r j :=
    ⟨⟨(i 0).val, (i 0).isLt⟩, ⟨(i 1).val, (i 1).isLt⟩, funext fun a => by match a with | ⟨0, _⟩ => rfl | ⟨1, _⟩ => rfl⟩
  rw [Cert.Spec.out_ix2, logSoftmax_read]
  exact congrArg (fun a => Cert.Spec.logSoftmaxRow a j) (funext fun k => logits_read x0 x1 x2 x3 x4 x5 r k)

end Cert.ReferenceIdeal.Layers

end
-- ==== Proof.KernelValue.lean ====
/-
  The kernel program's result as a function of its arguments.

  Read backwards from the end of the run: the result buffer is the second region's output array, which is the second
  layer (Spec.lean `out`) of what that region found in its five input arrays; those are the first region's output, its
  propagation and twice-propagation (host operations between the regions), and the second weights and bias; the first
  region's output is the first layer (`hidden`) of the input features, their propagation and twice-propagation (host
  operations before it), and the first weights and bias. Stage by stage these are the reference's own stages, so the
  result is the reference's last stage applied to the launch contents of the six arguments. The contents at each
  boundary between stretches of host operations and regions are followed one boundary at a time.
-/
import proofs.«140460_j43542378447164_1_alg».proof.Proof.Gen.KernelIdeal.Frame
import proofs.«140460_j43542378447164_1_alg».proof.Proof.RegionValue
import proofs.«140460_j43542378447164_1_alg».proof.Proof.KernelHost
import proofs.«140460_j43542378447164_1_alg».proof.Proof.RefLayers

set_option maxRecDepth 16384

noncomputable section

namespace Cert.KernelIdeal.Final

open Cert.KernelIdeal Cert.KernelIdeal.Gen Idealize.ShloMosaic Idealize.ShloMosaic.TcCoe Idealize.SL.Sem
open Cert.ReferenceIdeal.ReadP (val_main_v1 val_main_v3 val_main_v9 val_main_v12 val_main_cst_3 val_main_v13 val_main_v29 val_main_v45 val_main_v65 val_main_v73 val_main_v89 val_main_v109 val_main_v117)

variable (m : (ℓ : Loc nD τ sig) → Buf (Elt Ideal) ℓ) (ρ : Dev nD → PrngReg)

/-! ## After the first stretch -/

theorem w1_v1 (c : Dev nD) :
    W1 m ρ c (Proc.devRef .tc main_v1) = val_main_v1 (F := Ideal) (m ((c : Thread nD τ).loc main_arg1)) :=
  Cert.KernelIdeal.Host.s0_v1 (W0 m ρ c)
theorem w1_v3 (c : Dev nD) :
    W1 m ρ c (Proc.devRef .tc main_v3) = val_main_v3 (F := Ideal) (m ((c : Thread nD τ).loc main_arg1)) :=
  Cert.KernelIdeal.Host.s0_v3 (W0 m ρ c)
theorem w1_v9 (c : Dev nD) :
    W1 m ρ c (Proc.devRef .tc main_v9) = val_main_v9 (F := Ideal) (m ((c : Thread nD τ).loc main_arg1)) :=
  Cert.KernelIdeal.Host.s0_v9 (W0 m ρ c)
theorem w1_v12 (c : Dev nD) :
    W1 m ρ c (Proc.devRef .tc main_v12) = val_main_v12 (F := Ideal) (m ((c : Thread nD τ).loc main_arg1)) :=
  Cert.KernelIdeal.Host.s0_v12 (W0 m ρ c)
theorem w1_cst3 (c : Dev nD) :
    W1 m ρ c (Proc.devRef .tc main_cst_3) = val_main_cst_3 (F := Ideal) :=
  Cert.KernelIdeal.Host.s0_cst3 (W0 m ρ c)
theorem w1_arg0 (c : Dev nD) :
    W1 m ρ c (Proc.devRef .tc main_arg0) = (m ((c : Thread nD τ).loc main_arg0)) :=
  Cert.KernelIdeal.Host.s0_arg0 (W0 m ρ c)
theorem w1_arg2 (c : Dev nD) :
    W1 m ρ c (Proc.devRef .tc main_arg2) = (m ((c : Thread nD τ).loc main_arg2)) :=
  Cert.KernelIdeal.Host.s0_arg2 (W0 m ρ c)
theorem w1_arg3 (c : Dev nD) :
    W1 m ρ c (Proc.devRef .tc main_arg3) = (m ((c : Thread nD τ).loc main_arg3)) :=
  Cert.KernelIdeal.Host.s0_arg3 (W0 m ρ c)
theorem w1_arg4 (c : Dev nD) :
    W1 m ρ c (Proc.devRef .tc main_arg4) = (m ((c : Thread nD τ).loc main_arg4)) :=
  Cert.KernelIdeal.Host.s0_arg4 (W0 m ρ c)
theorem w1_arg5 (c : Dev nD) :
    W1 m ρ c (Proc.devRef .tc main_arg5) = (m ((c : Thread nD τ).loc main_arg5)) :=
  Cert.KernelIdeal.Host.s0_arg5 (W0 m ρ c)

/-! ## After the outlined selection -/

theorem w2_v13 (c : Dev nD) :
    W2 m ρ c (Proc.devRef .tc main_v13) = val_main_v13 (F := Ideal) (m ((c : Thread nD τ).loc main_arg1)) :=
  Cert.KernelIdeal.Host.s1_v13 (W1 m ρ c) _ (w1_v9 m ρ c) (w1_v12 m ρ c) (w1_cst3 m ρ c)
theorem w2_v1 (c : Dev nD) :
    W2 m ρ c (Proc.devRef .tc main_v1) = val_main_v1 (F := Ideal) (m ((c : Thread nD τ).loc main_arg1)) :=
  (Cert.KernelIdeal.Host.s1_v1 (W1 m ρ c)).trans (w1_v1 m ρ c)
theorem w2_v3 (c : Dev nD) :
    W2 m ρ c (Proc.devRef .tc main_v3) = val_main_v3 (F := Ideal) (m ((c : Thread nD τ).loc main_arg1)) :=
  (Cert.KernelIdeal.Host.s1_v3 (W1 m ρ c)).trans (w1_v3 m ρ c)
theorem w2_arg0 (c : Dev nD) :
    W2 m ρ c (Proc.devRef .tc main_arg0) = (m ((c : Thread nD τ).loc main_arg0)) :=
  (Cert.KernelIdeal.Host.s1_arg0 (W1 m ρ c)).trans (w1_arg0 m ρ c)
theorem w2_arg2 (c : Dev nD) :
    W2 m ρ c (Proc.devRef .tc main_arg2) = (m ((c : Thread nD τ).loc main_arg2)) :=
  (Cert.KernelIdeal.Host.s1_arg2 (W1 m ρ c)).trans (w1_arg2 m ρ c)
theorem w2_arg3 (c : Dev nD) :
    W2 m ρ c (Proc.devRef .tc main_arg3) = (m ((c : Thread nD τ).loc main_arg3)) :=
  (Cert.KernelIdeal.Host.s1_arg3 (W1 m ρ c)).trans (w1_arg3 m ρ c)
theorem w2_arg4 (c : Dev nD) :
    W2 m ρ c (Proc.devRef .tc main_arg4) = (m ((c : Thread nD τ).loc main_arg4)) :=
  (Cert.KernelIdeal.Host.s1_arg4 (W1 m ρ c)).trans (w1_arg4 m ρ c)
theorem w2_arg5 (c : Dev nD) :
    W2 m ρ c (Proc.devRef .tc main_arg5) = (m ((c : Thread nD τ).loc main_arg5)) :=
  (Cert.KernelIdeal.Host.s1_arg5 (W1 m ρ c)).trans (w1_arg5 m ρ c)

/-! ## At the first region's entry -/

theorem w3_v29 (c : Dev nD) :
    W3 m ρ c (Proc.devRef .tc main_v29) = val_main_v29 (F := Ideal) (m ((c : Thread nD τ).loc main_arg1)) :=
  Cert.KernelIdeal.Host.s2_v29 (W2 m ρ c) _ (w2_v13 m ρ c) (w2_v1 m ρ c) (w2_v3 m ρ c)
theorem w3_v42 (c : Dev nD) :
    W3 m ρ c (Proc.devRef .tc main_v42) = val_main_v45 (F := Ideal) (m ((c : Thread nD τ).loc main_arg0)) (m ((c : Thread nD τ).loc main_arg1)) :=
  Cert.KernelIdeal.Host.s2_v42 (W2 m ρ c) _ _ (w2_arg0 m ρ c) (w2_v13 m ρ c) (w2_v1 m ρ c) (w2_v3 m ρ c)
theorem w3_v58 (c : Dev nD) :
    W3 m ρ c (Proc.devRef .tc main_v58) = val_main_v65 (F := Ideal) (m ((c : Thread nD τ).loc main_arg0)) (m ((c : Thread nD τ).loc main_arg1)) :=
  Cert.KernelIdeal.Host.s2_v58 (W2 m ρ c) _ _ (w2_arg0 m ρ c) (w2_v13 m ρ c) (w2_v1 m ρ c) (w2_v3 m ρ c)
theorem w3_v1 (c : Dev nD) :
    W3 m ρ c (Proc.devRef .tc main_v1) = val_main_v1 (F := Ideal) (m ((c : Thread nD τ).loc main_arg1)) :=
  (Cert.KernelIdeal.Host.s2_v1 (W2 m ρ c)).trans (w2_v1 m ρ c)
theorem w3_v3 (c : Dev nD) :
    W3 m ρ c (Proc.devRef .tc main_v3) = val_main_v3 (F := Ideal) (m ((c : Thread nD τ).loc main_arg1)) :=
  (Cert.KernelIdeal.Host.s2_v3 (W2 m ρ c)).trans (w2_v3 m ρ c)
theorem w3_arg0 (c : Dev nD) :
    W3 m ρ c (Proc.devRef .tc main_arg0) = (m ((c : Thread nD τ).loc main_arg0)) :=
  (Cert.KernelIdeal.Host.s2_arg0 (W2 m ρ c)).trans (w2_arg0 m ρ c)
theorem w3_arg2 (c : Dev nD) :
    W3 m ρ c (Proc.devRef .tc main_arg2) = (m ((c : Thread nD τ).loc main_arg2)) :=
  (Cert.KernelIdeal.Host.s2_arg2 (W2 m ρ c)).trans (w2_arg2 m ρ c)
theorem w3_arg3 (c : Dev nD) :
    W3 m ρ c (Proc.devRef .tc main_arg3) = (m ((c : Thread nD τ).loc main_arg3)) :=
  (Cert.KernelIdeal.Host.s2_arg3 (W2 m ρ c)).trans (w2_arg3 m ρ c)
theorem w3_arg4 (c : Dev nD) :
    W3 m ρ c (Proc.devRef .tc main_arg4) = (m ((c : Thread nD τ).loc main_arg4)) :=
  (Cert.KernelIdeal.Host.s2_arg4 (W2 m ρ c)).trans (w2_arg4 m ρ c)
theorem w3_arg5 (c : Dev nD) :
    W3 m ρ c (Proc.devRef .tc main_arg5) = (m ((c : Thread nD τ).loc main_arg5)) :=
  (Cert.KernelIdeal.Host.s2_arg5 (W2 m ρ c)).trans (w2_arg5 m ρ c)

/-! ## The first region -/

/-- What the first region leaves in its output array: the reference's hidden features of the launch arguments. -/
theorem hidden_value (c : Dev nD) :
    W4 m ρ c (Proc.devRef .tc main_v59) = val_main_v73 (F := Ideal) (m ((c : Thread nD τ).loc main_arg0)) (m ((c : Thread nD τ).loc main_arg1)) (m ((c : Thread nD τ).loc main_arg2)) (m ((c : Thread nD τ).loc main_arg3)) := by
  refine (W4_arr m ρ c 5).trans ((Cert.KernelIdeal.Region.value0 (V3 m ρ) c).trans ?_)
  have e0 : V3 m ρ c main_arg0 = (m ((c : Thread nD τ).loc main_arg0)) := w3_arg0 m ρ c
  have e2 : V3 m ρ c main_arg2 = (m ((c : Thread nD τ).loc main_arg2)) := w3_arg2 m ρ c
  have e3 : V3 m ρ c main_arg3 = (m ((c : Thread nD τ).loc main_arg3)) := w3_arg3 m ρ c
  have e42 : V3 m ρ c main_v42 = val_main_v45 (F := Ideal) (m ((c : Thread nD τ).loc main_arg0)) (m ((c : Thread nD τ).loc main_arg1)) := w3_v42 m ρ c
  have e58 : V3 m ρ c main_v58 = val_main_v65 (F := Ideal) (m ((c : Thread nD τ).loc main_arg0)) (m ((c : Thread nD τ).loc main_arg1)) := w3_v58 m ρ c
  rw [e0, e2, e3, e42, e58]
  exact (Cert.ReferenceIdeal.Layers.hidden_eq _ _ _ _).symm

/-- The edge data as the stretch between the regions finds them: the first region touches none of them. -/
theorem edge_v1 (c : Dev nD) : W4 m ρ c (Proc.devRef .tc main_v1) = val_main_v1 (F := Ideal) (m ((c : Thread nD τ).loc main_arg1)) :=
  (W4_of_ne m ρ c main_v1 (by decide)).trans (w3_v1 m ρ c)
theorem edge_v3 (c : Dev nD) : W4 m ρ c (Proc.devRef .tc main_v3) = val_main_v3 (F := Ideal) (m ((c : Thread nD τ).loc main_arg1)) :=
  (W4_of_ne m ρ c main_v3 (by decide)).trans (w3_v3 m ρ c)
theorem edge_v29 (c : Dev nD) : W4 m ρ c (Proc.devRef .tc main_v29) = val_main_v29 (F := Ideal) (m ((c : Thread nD τ).loc main_arg1)) :=
  (W4_of_ne m ρ c main_v29 (by decide)).trans (w3_v29 m ρ c)

/-! ## The second region -/

/-- THE RESULT: after the run the result buffer holds the reference's last stage of the launch arguments. -/
theorem result_value (c : Dev nD) :
    W6 m ρ c (Proc.devRef .tc main_v89)
      = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 5).trans ((Cert.KernelIdeal.Region.value1 (V5 m ρ) c).trans ?_)
  have e59 : V5 m ρ c main_v59 = val_main_v73 (F := Ideal) (m ((c : Thread nD τ).loc main_arg0)) (m ((c : Thread nD τ).loc main_arg1)) (m ((c : Thread nD τ).loc main_arg2)) (m ((c : Thread nD τ).loc main_arg3)) :=
    (Cert.KernelIdeal.Host.between_v59 (W4 m ρ c)).trans (hidden_value m ρ c)
  have e72 : V5 m ρ c main_v72 = val_main_v89 (F := Ideal) (m ((c : Thread nD τ).loc main_arg0)) (m ((c : Thread nD τ).loc main_arg1)) (m ((c : Thread nD τ).loc main_arg2)) (m ((c : Thread nD τ).loc main_arg3)) :=
    Cert.KernelIdeal.Host.between_v72 (W4 m ρ c) _ _ _ _ (hidden_value m ρ c) (edge_v1 m ρ c) (edge_v3 m ρ c) (edge_v29 m ρ c)
  have e88 : V5 m ρ c main_v88 = val_main_v109 (F := Ideal) (m ((c : Thread nD τ).loc main_arg0)) (m ((c : Thread nD τ).loc main_arg1)) (m ((c : Thread nD τ).loc main_arg2)) (m ((c : Thread nD τ).loc main_arg3)) :=
    Cert.KernelIdeal.Host.between_v88 (W4 m ρ c) _ _ _ _ (hidden_value m ρ c) (edge_v1 m ρ c) (edge_v3 m ρ c) (edge_v29 m ρ c)
  have e4 : V5 m ρ c main_arg4 = (m ((c : Thread nD τ).loc main_arg4)) :=
    (Cert.KernelIdeal.Host.between_arg4 (W4 m ρ c)).trans ((W4_of_ne m ρ c main_arg4 (by decide)).trans (w3_arg4 m ρ c))
  have e5 : V5 m ρ c main_arg5 = (m ((c : Thread nD τ).loc main_arg5)) :=
    (Cert.KernelIdeal.Host.between_arg5 (W4 m ρ c)).trans ((W4_of_ne m ρ c main_arg5 (by decide)).trans (w3_arg5 m ρ c))
  rw [e59, e72, e88, e4, e5]
  exact (Cert.ReferenceIdeal.Layers.out_eq _ _ _ _ _ _).symm

end Cert.KernelIdeal.Final

end
-- ==== Proof.lean ====
/-
  A two-layer Chebyshev graph convolution with a final log-softmax, computed two ways, gives equal results on the
  extended reals.

  Both programs first compute, on the host and by the same operations, the symmetric normalisation of the graph (node
  degrees, their inverse square roots where positive, the edge weights) and the propagation `prop` of a feature array
  along the edges. With T₀ = x, T₁ = prop x, T₂ = 2·prop T₁ − T₀, a layer is T₀·W[0] + T₁·W[1] + T₂·W[2] + b; the first
  layer is clamped below at zero, giving h, and the second, built from h in the same way, goes through the logarithm of
  the softmax over its sixteen channels.

  The reference forms each layer by three whole-array products on the host. The kernel program forms each layer in a
  grid of ten points, each point taking 10000 nodes: three block products on the matrix unit from zero accumulators
  (the operands narrowed to bf16 first, which on the extended reals changes nothing), the bias, and the layer's
  row-wise finish (the clamp; or the row maximum, the exponentials' row sum, its logarithm). Since a layer's value at a
  node depends only on that node's row of T₀, T₁, T₂, the block a point writes is the corresponding block of the whole
  layer, and the ten blocks tile the nodes: after a region its output array is the layer of its entry arrays (Spec.lean,
  HiddenBlock / OutBlock, RegionValue). The host operations around the regions are term for term the reference's
  stages (KernelHost), and the reference's stages for the two layers are the same two layer functions (RefLayers). So
  the kernel program's result is the reference's last stage of the arguments (KernelValue), which is what the reference's
  own run, read back in three pieces (RefRun), leaves in its result. No step uses distributivity or cancellation, so the finiteness of the inputs is never
  called on. The idealization rewrote no operation, so the kernel's sanctioned idealization is its own text.
-/
import proofs.«140460_j43542378447164_1_alg».proof.Defs
import proofs.«140460_j43542378447164_1_alg».proof.Proof.Gen.Kernel
import proofs.«140460_j43542378447164_1_alg».proof.Proof.Gen.Kernel.Frame
import proofs.«140460_j43542378447164_1_alg».proof.Proof.Gen.KernelIdeal
import proofs.«140460_j43542378447164_1_alg».proof.Proof.Gen.KernelIdeal.Frame
import proofs.«140460_j43542378447164_1_alg».proof.Proof.Gen.ReferenceIdeal
import proofs.«140460_j43542378447164_1_alg».proof.Proof.Gen.Pre_finite_inputs
import proofs.«140460_j43542378447164_1_alg».proof.Proof.RefRun
import proofs.«140460_j43542378447164_1_alg».proof.Proof.KernelRun
import proofs.«140460_j43542378447164_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its run read back, the result dropped. -/
theorem frame_referenceIdeal : Cert.frame_ReferenceIdeal := fun m ρ _ =>
  (θ_run Cert.ReferenceIdeal.defs _ _).mono (fun _ h c => (h c).2) (Cert.ReferenceIdeal.HandRun.run m ρ)

/-- The ideal pass rewrote no operation. -/
theorem preserves : Cert.preserves_Kernel_KernelIdeal := trivial

/-- From memories agreeing on the six arguments both programs end with the reference's last stage of those arguments in
    their result buffer: the kernel program by its run read back through its two regions, the reference by its own run. -/
theorem algebraic : Cert.algebraic_KernelIdeal_ReferenceIdeal := by
  intro m ρ m' ρ' _ hagree
  refine ⟨fun c => Cert.ReferenceIdeal.ReadP.val_main_v117 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Final.result_value m ρ c), (h c).2⟩)
      (Cert.KernelIdeal.Run.run_final m ρ)
  · refine (θ_run Cert.ReferenceIdeal.defs _ _).mono (fun r h c => ⟨?_, (h c).2⟩)
      (Cert.ReferenceIdeal.HandRun.run m' ρ')
    rw [(h c).1, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
